-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096 : Shape := ⟨2, ![4, 4096]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg3 : FVec F S4x4096 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_cst_6 : FVec F S_ .f32 := constant S_ .f32 0x00000000#32
  let main_v19 : FVec F S4x4096 .f32 := broadcastInDim S4x4096 ![] bcast_S_S4x4096 main_cst_6
  let main_v20 : IVec S4x4096 1 := cmpf .oge main_arg3 main_v19
  let main_c_7 : IVec S_ 1 := constantI S_ 1 1#1
  let main_v21 : IVec S_ 1 := (fun x v => Host.reduce IntOp.andi x v reducesTo_S4x4096_S_d0_1 h_S_) main_v20 main_c_7
  let main_v22 : IVec S_ 1 := andi main_v18 main_v21
  main_v22

def fn {F : FTy → Type} [FloatOps F] (main_arg0 : FVec F S4x4096x64 .f32) (main_arg1 : FVec F S4x4096x64 .f32) (main_arg2 : FVec F S4x4096x64 .f32) (main_arg3 : FVec F S4x4096 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg3 main_v13 main_v16
-- ==== Kernel.lean ====
abbrev S4x4096x64 : Shape := ⟨3, ![4, 4096, 64]⟩
abbrev S4x4096 : Shape := ⟨2, ![4, 4096]⟩
abbrev S4x1x4096 : Shape := ⟨3, ![4, 1, 4096]⟩
abbrev S4x4096x1 : Shape := ⟨3, ![4, 4096, 1]⟩
abbrev S1x256x64 : Shape := ⟨3, ![1, 256, 64]⟩
abbrev S1x4096x64 : Shape := ⟨3, ![1, 4096, 64]⟩
abbrev S1x1x4096 : Shape := ⟨3, ![1, 1, 4096]⟩
abbrev S1x256x1 : Shape := ⟨3, ![1, 256, 1]⟩
abbrev S256x64 : Shape := ⟨2, ![256, 64]⟩
abbrev S256x1 : Shape := ⟨2, ![256, 1]⟩
abbrev S1x512x64 : Shape := ⟨3, ![1, 512, 64]⟩
abbrev S512x64 : Shape := ⟨2, ![512, 64]⟩
abbrev S1x1x512 : Shape := ⟨3, ![1, 1, 512]⟩
abbrev S1x512 : Shape := ⟨2, ![1, 512]⟩
abbrev S256x512 : Shape := ⟨2, ![256, 512]⟩
abbrev S256 : Shape := ⟨1, ![256]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096, .f32⟩
  | .hbm, ⟨4, _⟩ => ⟨S4x4096x64, .bf16⟩
  | .hbm, ⟨5, _⟩ => ⟨S4x4096x64, .bf16⟩
  | .hbm, ⟨6, _⟩ => ⟨S4x4096, .f32⟩
  | .hbm, ⟨7, _⟩ => ⟨S4x1x4096, .f32⟩
  | .hbm, ⟨8, _⟩ => ⟨S4x4096x1, .f32⟩
  | .hbm, ⟨9, _⟩ => ⟨S4x4096x64, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x1x4096, .f32⟩
  | .local _ .vmem, ⟨7, _⟩ => ⟨S1x1x4096, .f32⟩
  | .local _ .vmem, ⟨8, _⟩ => ⟨S1x256x1, .f32⟩
  | .local _ .vmem, ⟨9, _⟩ => ⟨S1x256x1, .f32⟩
  | .local _ .vmem, ⟨10, _⟩ => ⟨S1x256x64, .f32⟩
  | .local _ .vmem, ⟨11, _⟩ => ⟨S1x256x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  let c512_i32 : BitVec 32 := 512#32
  let v8 : BitVec 32 := Scalar.muli c0_i32 c512_i32
  v8
def k0_off1 (c0_i32 : BitVec 32) : Fin 3 → Nat :=
  let c0_5 : Index := 0#32
  let c512_i32 : BitVec 32 := 512#32
  let v8 : BitVec 32 := Scalar.muli c0_i32 c512_i32
  let v9 : BitVec 32 := v8
  let v10 : Index := Scalar.indexCast v9
  let c0_6 : Index := 0#32
  ![0, v10.toNat, 0]
def k0_off2 (c0_i32 : BitVec 32) : Fin 3 → Nat :=
  let c0_9 : Index := 0#32
  let c0_10 : Index := 0#32
  let c512_i32 : BitVec 32 := 512#32
  let v8 : BitVec 32 := Scalar.muli c0_i32 c512_i32
  let v9 : BitVec 32 := v8
  let v16 : Index := Scalar.indexCast v9
  ![0, 0, v16.toNat]
def k0_mult2 : BitVec 32 :=
  let c1_i32 : BitVec 32 := 1#32
  let c512_i32_15 : BitVec 32 := 512#32
  let v39 : BitVec 32 := Scalar.muli c1_i32 c512_i32_15
  v39
def k0_mult3 : BitVec 32 :=
  let c2_i32 : BitVec 32 := 2#32
  let c512_i32_26 : BitVec 32 := 512#32
  let v70 : BitVec 32 := Scalar.muli c2_i32 c512_i32_26
  v70
def k0_mult4 : BitVec 32 :=
  let c3_i32 : BitVec 32 := 3#32
  let c512_i32_37 : BitVec 32 := 512#32
  let v101 : BitVec 32 := Scalar.muli c3_i32 c512_i32_37
  v101
def k0_mult5 : BitVec 32 :=
  let c4_i32 : BitVec 32 := 4#32
  let c512_i32_48 : BitVec 32 := 512#32
  let v132 : BitVec 32 := Scalar.muli c4_i32 c512_i32_48
  v132
def k0_mult6 : BitVec 32 :=
  let c5_i32 : BitVec 32 := 5#32
  let c512_i32_59 : BitVec 32 := 512#32
  let v163 : BitVec 32 := Scalar.muli c5_i32 c512_i32_59
  v163
def k0_mult7 : BitVec 32 :=
  let c6_i32 : BitVec 32 := 6#32
  let c512_i32_70 : BitVec 32 := 512#32
  let v194 : BitVec 32 := Scalar.muli c6_i32 c512_i32_70
  v194
def k0_mult8 : BitVec 32 :=
  let c7_i32 : BitVec 32 := 7#32
  let c512_i32_81 : BitVec 32 := 512#32
  let v225 : BitVec 32 := Scalar.muli c7_i32 c512_i32_81
  v225
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S4x4096_S4x1x4096 : S4x4096.ShapeCasts S4x1x4096
  shapeCasts_S4x4096_S4x4096x1 : S4x4096.ShapeCasts S4x4096x1
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  h_S1x512x64 : 0 < S1x512x64.numel
  shapeCasts_S1x512x64_S512x64 : S1x512x64.ShapeCasts S512x64
  h_S1x1x512 : 0 < S1x1x512.numel
  shapeCasts_S1x1x512_S1x512 : S1x1x512.ShapeCasts S1x512
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  broadcasts_S256x1_S256x64 : S256x1.Broadcasts S256x64
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x64_S1x256x64 : S256x64.ShapeCasts S1x256x64
  dot_S256x64_S512x64_S256x512_1_1_0_0_n_n_wf : DotDims.WF S256x64 S512x64 S256x512 [1] [1] [0] [0] [] []
  dot_S256x512_S512x64_S256x64_1_0_0_1_n_n_wf : DotDims.WF S256x512 S512x64 S256x64 [1] [0] [0] [1] [] []
  hrank0 : 0 < grid0.rank
  k0_mult1_dvd : 512 ∣ k0_mult1.toNat
  k0_off1_inb : ∀ (r : Fin 8), ∀ a, (k0_off1 (BitVec.ofNat 32 r.val)) a + S1x512x64.size a ≤ S1x4096x64.size a
  k0_off2_inb : ∀ (r : Fin 8), ∀ a, (k0_off2 (BitVec.ofNat 32 r.val)) a + S1x1x512.size a ≤ S1x1x4096.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .f32 = 32 ∨ (Rect.block (s := S4x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .bf16 = 32 ∨ (Rect.block (s := S4x4096x64) S1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .bf16 = 32 ∨ (Rect.block (s := S4x4096x64) S1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S4x4096x1.size a
  hwx0_4 : ∀ i : grid0.Coords, EltTy.bits .f32 = 32 ∨ (Rect.block (s := S4x4096x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S4x4096x64.size a
  hwx0_5 : ∀ i : grid0.Coords, EltTy.bits .f32 = 32 ∨ (Rect.block (s := S4x4096x64) S1x256x64.size (cc0_transform_5 i) (hinb0_5 i)).WholeWords (EltTy.packing .f32)

variable [Facts₀]

def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096 : Shape := ⟨2, ![4, 4096]⟩
abbrev S_ : Shape := ⟨0, ![]⟩
abbrev S4x4096x4096 : Shape := ⟨3, ![4, 4096, 4096]⟩
abbrev S4x1x4096 : Shape := ⟨3, ![4, 1, 4096]⟩
abbrev S4x4096x1 : Shape := ⟨3, ![4, 4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x4096x64, .f32⟩
  | .hbm, ⟨8, _⟩ => ⟨S4x4096x64, .f32⟩
  | .hbm, ⟨9, _⟩ => ⟨S4x4096x4096, .f32⟩
  | .hbm, ⟨10, _⟩ => ⟨S4x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x64, .f32⟩
  | .hbm, ⟨29, _⟩ => ⟨S4x4096x1, .f32⟩
  | .hbm, ⟨30, _⟩ => ⟨S4x4096x64, .f32⟩
  | .hbm, ⟨31, _⟩ => ⟨S4x4096x64, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x64, .f32⟩
  | .hbm, ⟨37, _⟩ => ⟨S4x4096x64, .f32⟩
  | .hbm, ⟨38, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S4x4096x64 : S_.BroadcastsInDim S4x4096x64 (![] : Fin 0 → Fin S4x4096x64.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096x1_S4x4096x64_0_1_2 : S4x4096x1.BroadcastsInDim S4x4096x64 (![0, 1, 2] : Fin 3 → Fin S4x4096x64.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.BlockSpec.lean ====
/-
  One output block of the kernel as a structured function of its five input blocks.

  A grid point holds a tile of 256 query rows `x0`, all 4096 keys `x1` and values `x2` of its batch, the logarithm of
  the batch's mask `x3` and the tile's own mask column `x4`. The body scales the queries by 1/8, then walks the keys in
  eight chunks of 512, carrying per row a running maximum `m`, a running denominator `l` and a running numerator
  `acc` (`step`): with the chunk's scores `s = q·kᵀ + log mask`, the new maximum is `m' = max m (max_j s)`, and
  `l' = exp (m − m')·l + Σ_j exp (s − m')`, `acc' = exp (m − m')·acc + exp (s − m')·v`. After the last chunk it stores
  `acc·(1/l)·own + scaled·(1 − own)` (`finish`). This file names those pieces and shows that the value the body's
  single covering store leaves is their composition; the rest of the proof reasons about the named pieces only.
-/
import proofs.«112999_j62397284877035_2_alg».proof.Proof.Gen.KernelIdeal.Value
import Idealize.ShloMosaic.Lib.Pipeline.Value
import Idealize.ShloMosaic.Lib.Tactic

set_option maxRecDepth 65536

noncomputable section

open Idealize.ShloMosaic Idealize.ShloMosaic.TcCoe Idealize.SL.Sem

namespace Cert.KernelIdeal.Block

open Cert.KernelIdeal Cert.KernelIdeal.Gen

variable {F : FTy → Type} [FloatOps F]

/-- The query tile scaled by 1/8. -/
def scaled (x0 : Vec F S1x256x64 .f32) : FVec F S256x64 .f32 :=
  mulf (shapeCast S256x64 x0 shapeCasts_S1x256x64_S256x64) (broadcast S256x64 (Scalar.ofBits .f32 0x3E000000#32))

/-- The scaled query tile in the matrix unit's input format. -/
def scaledB (x0 : Vec F S1x256x64 .f32) : FVec F S256x64 .bf16 := truncf .bf16 (scaled x0) bitsLt_bf16_f32

/-- Chunk `c` of a batch's keys or values: rows `512·c … 512·c + 511`. -/
def chunk (x : Vec F S1x4096x64 .bf16) (c : Fin 8) : Vec F S1x512x64 .bf16 :=
  View.ld x (Rect.unit (s := S1x4096x64) (k0_off1 (BitVec.ofNat 32 c.val)) S1x512x64.size (k0_off1_inb c))

/-- Chunk `c` of the batch's log-mask row. -/
def lmChunk (x3 : Vec F S1x1x4096 .f32) (c : Fin 8) : Vec F S1x1x512 .f32 :=
  View.ld x3 (Rect.unit (s := S1x1x4096) (k0_off2 (BitVec.ofNat 32 c.val)) S1x1x512.size (k0_off2_inb c))

/-- The scores of a chunk: scaled queries times keys, plus the keys' log-mask along every row. -/
def scoresOf (qb : FVec F S256x64 .bf16) (kc : Vec F S1x512x64 .bf16) (lm : Vec F S1x1x512 .f32) : FVec F S256x512 .f32 :=
  addf (matmul dot_S256x64_S512x64_S256x512_1_1_0_0_n_n none qb (shapeCast S512x64 kc shapeCasts_S1x512x64_S512x64) (constant S256x512 .f32 0x00000000#32))
    (broadcastTo S256x512 (shapeCast S1x512 lm shapeCasts_S1x1x512_S1x512) broadcasts_S1x512_S256x512)

/-- What is carried from chunk to chunk: per row the running maximum and denominator, per entry the running numerator. -/
structure State (F : FTy → Type) where
  m : FVec F S256x1 .f32
  l : FVec F S256x1 .f32
  acc : FVec F S256x64 .f32

/-- Before the first chunk: maximum −∞, denominator and numerator zero. -/
def init : State F :=
  ⟨broadcast S256x1 (Scalar.ofBits .f32 0xFF800000#32), broadcast S256x1 (Scalar.ofBits .f32 0x00000000#32),
   broadcast S256x64 (Scalar.ofBits .f32 0x00000000#32)⟩

/-- The running maximum after a chunk with scores `s`. -/
def newMax (m : FVec F S256x1 .f32) (s : FVec F S256x512 .f32) : FVec F S256x1 .f32 :=
  maximumf m (shapeCast S256x1 (multiReduction .maximumf [1] S256 s 0xFF800000#32 reduces_S256x512_S256 (.inl rfl) rfl) shapeCasts_S256_S256x1)

/-- One chunk of the online softmax. -/
def step (qb : FVec F S256x64 .bf16) (st : State F) (kc vc : Vec F S1x512x64 .bf16) (lm : Vec F S1x1x512 .f32) : State F :=
  ⟨newMax st.m (scoresOf qb kc lm),
   addf (mulf (exp (subf st.m (newMax st.m (scoresOf qb kc lm)))) st.l)
     (shapeCast S256x1 (multiReduction .add [1] S256
       (exp (subf (scoresOf qb kc lm) (broadcastTo S256x512 (newMax st.m (scoresOf qb kc lm)) broadcasts_S256x1_S256x512)))
       0x00000000#32 reduces_S256x512_S256 (.inl rfl) rfl) shapeCasts_S256_S256x1),
   addf (mulf (broadcastTo S256x64 (exp (subf st.m (newMax st.m (scoresOf qb kc lm)))) broadcasts_S256x1_S256x64) st.acc)
     (matmul dot_S256x512_S512x64_S256x64_1_0_0_1_n_n none
       (truncf .bf16 (exp (subf (scoresOf qb kc lm) (broadcastTo S256x512 (newMax st.m (scoresOf qb kc lm)) broadcasts_S256x1_S256x512))) bitsLt_bf16_f32)
       (shapeCast S512x64 vc shapeCasts_S1x512x64_S512x64) (constant S256x64 .f32 0x00000000#32))⟩

/-- The state after the first `n` chunks. -/
def stateAfter (x0 : Vec F S1x256x64 .f32) (x1 x2 : Vec F S1x4096x64 .bf16) (x3 : Vec F S1x1x4096 .f32) : ℕ → State F
  | 0 => init
  | n + 1 => if h : n < 8 then step (scaledB x0) (stateAfter x0 x1 x2 x3 n) (chunk x1 ⟨n, h⟩) (chunk x2 ⟨n, h⟩) (lmChunk x3 ⟨n, h⟩)
             else stateAfter x0 x1 x2 x3 n

/-- The stored tile: the numerator over the denominator, blended with the scaled query by the row's own mask. -/
def finish (x0 : Vec F S1x256x64 .f32) (st : State F) (x4 : Vec F S1x256x1 .f32) : FVec F S1x256x64 .f32 :=
  shapeCast S1x256x64
    (addf
      (mulf (mulf st.acc (broadcastTo S256x64 (divf (broadcast S256x1 (Scalar.ofBits .f32 0x3F800000#32)) st.l) broadcasts_S256x1_S256x64))
        (broadcastTo S256x64 (shapeCast S256x1 x4 shapeCasts_S1x256x1_S256x1) broadcasts_S256x1_S256x64))
      (mulf (scaled x0)
        (broadcastTo S256x64 (subf (broadcast S256x1 (Scalar.ofBits .f32 0x3F800000#32)) (shapeCast S256x1 x4 shapeCasts_S1x256x1_S256x1)) broadcasts_S256x1_S256x64)))
    shapeCasts_S256x64_S1x256x64

/-- The whole block: eight chunks, then the blend. -/
def blockOut (x0 : Vec F S1x256x64 .f32) (x1 x2 : Vec F S1x4096x64 .bf16) (x3 : Vec F S1x1x4096 .f32) (x4 : Vec F S1x256x1 .f32) :
    FVec F S1x256x64 .f32 :=
  finish x0 (stateAfter x0 x1 x2 x3 8) x4

theorem hz3 : (![0, 0, 0] : Fin 3 → Nat) = fun _ => 0 := funext fun a => by fin_cases a <;> rfl

/-- What the body leaves in the output's staging buffer is the block function of the five input blocks. -/
theorem out_eq (c : Dev nD) (i : grid0.Coords) (arg2 : Memref sig .tc .vmem S1x256x64 .f32) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1x4096 .f32) (harg5 : arg5.IsWhole) (arg6 : Memref sig .tc .vmem S1x256x1 .f32) (harg6 : arg6.IsWhole) (arg7 : Memref sig .tc .vmem S1x256x64 .f32) (harg7 : arg7.IsWhole)
    (x0 : Vec F S1x256x64 .f32) (x1 : Vec F S1x4096x64 .bf16) (x2 : Vec F S1x4096x64 .bf16) (x3 : Vec F S1x1x4096 .f32) (x4 : Vec F S1x256x1 .f32) :
    out0_A_5 c i arg2 harg2 arg3 harg3 arg4 harg4 arg5 harg5 arg6 harg6 arg7 harg7 x0 x1 x2 x3 x4 = blockOut x0 x1 x2 x3 x4 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x256x64) hz3, View.ld_unit_zero (S := S1x256x1) hz3]
  rfl

end Cert.KernelIdeal.Block

end
-- ==== Proof.LibColumn.lean ====
/-
  A column of row values laid out for a `keepdims` sum: a vector of `a` values recast as an `[a, 1]` column, and such a
  column broadcast along its unit axis to an `[a, b]` matrix — each read at an index given by its coordinates. (The
  companion row forms, `[a] → [1, a]` and `[1, b] → [a, b]`, are in the library.)
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.StepRead.lean ====
/-
  The pieces of one block read at an index, on the extended reals.

  Chunk `c` of the keys read at row `j` is the batch's key row `512·c + j`; likewise the values and the log-mask. The
  scores of a chunk at `(r, j)` are the dot product of scaled query row `r` with that key row, plus the key's
  log-mask: the matrix product onto a zero accumulator is the plain sum over the 64 columns, and the log-mask row is
  repeated down the 256 query rows.
-/
import proofs.«112999_j62397284877035_2_alg».proof.Proof.BlockSpec
import proofs.«112999_j62397284877035_2_alg».proof.Proof.LibColumn
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Block

open Cert.KernelIdeal Cert.KernelIdeal.Gen

/-! ## The two contractions' operand indices -/

/-- Queries times keys: the left operand is read at (output row, contracted column). -/
theorem qk_lhs0 (j : S256x512.Idx) (k : dot_S256x64_S512x64_S256x512_1_1_0_0_n_n.contr.Idx) :
    (dot_S256x64_S512x64_S256x512_1_1_0_0_n_n.lhsIdx j k 0).val = (j 0).val := by
  unfold DotDims.lhsIdx
  rw [dif_neg (show ¬(0 : Fin S256x64.rank) ∈ dot_S256x64_S512x64_S256x512_1_1_0_0_n_n.lhsBatch by decide),
    dif_pos (show (0 : Fin S256x64.rank) ∈ dot_S256x64_S512x64_S256x512_1_1_0_0_n_n.lhsNonContracting by decide)]
  rfl
theorem qk_lhs1 (j : S256x512.Idx) (k : dot_S256x64_S512x64_S256x512_1_1_0_0_n_n.contr.Idx) :
    (dot_S256x64_S512x64_S256x512_1_1_0_0_n_n.lhsIdx j k 1).val = (k ⟨0, by decide⟩).val :=
  dot_S256x64_S512x64_S256x512_1_1_0_0_n_n.lhsIdx_val_of_single rfl j k
/-- … and the right operand at (output column, contracted column): the keys enter transposed. -/
theorem qk_rhs0 (j : S256x512.Idx) (k : dot_S256x64_S512x64_S256x512_1_1_0_0_n_n.contr.Idx) :
    (dot_S256x64_S512x64_S256x512_1_1_0_0_n_n.rhsIdx j k 0).val = (j 1).val := by
  unfold DotDims.rhsIdx
  rw [dif_neg (show ¬(0 : Fin S512x64.rank) ∈ dot_S256x64_S512x64_S256x512_1_1_0_0_n_n.rhsBatch by decide),
    dif_pos (show (0 : Fin S512x64.rank) ∈ dot_S256x64_S512x64_S256x512_1_1_0_0_n_n.rhsNonContracting by decide)]
  rfl
theorem qk_rhs1 (j : S256x512.Idx) (k : dot_S256x64_S512x64_S256x512_1_1_0_0_n_n.contr.Idx) :
    (dot_S256x64_S512x64_S256x512_1_1_0_0_n_n.rhsIdx j k 1).val = (k ⟨0, by decide⟩).val :=
  dot_S256x64_S512x64_S256x512_1_1_0_0_n_n.rhsIdx_val_of_single rfl j k

/-- Weights times values: the left operand is read at (output row, contracted key). -/
theorem pv_lhs0 (j : S256x64.Idx) (k : dot_S256x512_S512x64_S256x64_1_0_0_1_n_n.contr.Idx) :
    (dot_S256x512_S512x64_S256x64_1_0_0_1_n_n.lhsIdx j k 0).val = (j 0).val := by
  unfold DotDims.lhsIdx
  rw [dif_neg (show ¬(0 : Fin S256x512.rank) ∈ dot_S256x512_S512x64_S256x64_1_0_0_1_n_n.lhsBatch by decide),
    dif_pos (show (0 : Fin S256x512.rank) ∈ dot_S256x512_S512x64_S256x64_1_0_0_1_n_n.lhsNonContracting by decide)]
  rfl
theorem pv_lhs1 (j : S256x64.Idx) (k : dot_S256x512_S512x64_S256x64_1_0_0_1_n_n.contr.Idx) :
    (dot_S256x512_S512x64_S256x64_1_0_0_1_n_n.lhsIdx j k 1).val = (k ⟨0, by decide⟩).val :=
  dot_S256x512_S512x64_S256x64_1_0_0_1_n_n.lhsIdx_val_of_single rfl j k
/-- … and the right operand at (contracted key, output column). -/
theorem pv_rhs0 (j : S256x64.Idx) (k : dot_S256x512_S512x64_S256x64_1_0_0_1_n_n.contr.Idx) :
    (dot_S256x512_S512x64_S256x64_1_0_0_1_n_n.rhsIdx j k 0).val = (k ⟨0, by decide⟩).val :=
  dot_S256x512_S512x64_S256x64_1_0_0_1_n_n.rhsIdx_val_of_single rfl j k
theorem pv_rhs1 (j : S256x64.Idx) (k : dot_S256x512_S512x64_S256x64_1_0_0_1_n_n.contr.Idx) :
    (dot_S256x512_S512x64_S256x64_1_0_0_1_n_n.rhsIdx j k 1).val = (j 1).val := by
  unfold DotDims.rhsIdx
  rw [dif_neg (show ¬(1 : Fin S512x64.rank) ∈ dot_S256x512_S512x64_S256x64_1_0_0_1_n_n.rhsBatch by decide),
    dif_pos (show (1 : Fin S512x64.rank) ∈ dot_S256x512_S512x64_S256x64_1_0_0_1_n_n.rhsNonContracting by decide)]
  rfl

/-! ## Chunks of the batch's arrays -/

/-- Row `j` of chunk `c` is row `512·c + j` of the batch. -/
theorem key_lt (c : Fin 8) (j : Fin 512) : 512 * c.val + j.val < 4096 := by
  have := c.isLt; have := j.isLt; omega

/-- The row offset of chunk `c`, as the body computes it in 32-bit words, is `512·c`. -/
theorem off1_val (c : Fin 8) : k0_off1 (BitVec.ofNat 32 c.val) = ![0, 512 * c.val, 0] := by
  fin_cases c <;> rfl
theorem off2_val (c : Fin 8) : k0_off2 (BitVec.ofNat 32 c.val) = ![0, 0, 512 * c.val] := by
  fin_cases c <;> rfl

variable {α : Type}

theorem chunk_apply (x : Vec Ideal S1x4096x64 .bf16) (c : Fin 8) (j : Fin 512) (d : Fin 64) :
    chunk x c (ix3 (0 : Fin 1) j d) = x (ix3 (0 : Fin 1) ⟨512 * c.val + j.val, key_lt c j⟩ d) := by
  unfold chunk
  refine congrArg x (funext fun a => Fin.ext ?_)
  have ho := congrFun (off1_val c)
  match a with
  | ⟨0, _⟩ => show k0_off1 (BitVec.ofNat 32 c.val) 0 + 1 * 0 = 0; rw [ho 0]; rfl
  | ⟨1, _⟩ => show k0_off1 (BitVec.ofNat 32 c.val) 1 + 1 * j.val = 512 * c.val + j.val; rw [ho 1]; show 512 * c.val + 1 * j.val = _; omega
  | ⟨2, _⟩ => show k0_off1 (BitVec.ofNat 32 c.val) 2 + 1 * d.val = d.val; rw [ho 2]; show 0 + 1 * d.val = _; omega

theorem lmChunk_apply (x3 : Vec Ideal S1x1x4096 .f32) (c : Fin 8) (j : Fin 512) :
    lmChunk x3 c (ix3 (0 : Fin 1) (0 : Fin 1) j) = x3 (ix3 (0 : Fin 1) (0 : Fin 1) ⟨512 * c.val + j.val, key_lt c j⟩) := by
  unfold lmChunk
  refine congrArg x3 (funext fun a => Fin.ext ?_)
  have ho := congrFun (off2_val c)
  match a with
  | ⟨0, _⟩ => show k0_off2 (BitVec.ofNat 32 c.val) 0 + 1 * 0 = 0; rw [ho 0]; rfl
  | ⟨1, _⟩ => show k0_off2 (BitVec.ofNat 32 c.val) 1 + 1 * 0 = 0; rw [ho 1]; rfl
  | ⟨2, _⟩ => show k0_off2 (BitVec.ofNat 32 c.val) 2 + 1 * j.val = 512 * c.val + j.val; rw [ho 2]; show 512 * c.val + 1 * j.val = _; omega

/-! ## The scores of a chunk -/

/-- A `[1, 512, 64]` chunk seen as a `[512, 64]` matrix: the unit axis drops. -/
theorem chunkMat_apply (kc : Vec Ideal S1x512x64 .bf16) (j : Fin 512) (d : Fin 64) :
    shapeCast S512x64 kc shapeCasts_S1x512x64_S512x64 (ix2 j d) = kc (ix3 (0 : Fin 1) j d) :=
  shapeCast_apply kc _ _ _ (by
    rw [Shape.rowMajor_val_three, Shape.rowMajor_val_two]
    show ((0 : ℕ) * 512 + j.val) * 64 + d.val = j.val * 64 + d.val
    omega)

/-- The log-mask chunk repeated down the query rows. -/
theorem lmRows_apply (lm : Vec Ideal S1x1x512 .f32) (r : Fin 256) (j : Fin 512) :
    broadcastTo S256x512 (shapeCast S1x512 lm shapeCasts_S1x1x512_S1x512) broadcasts_S1x512_S256x512 (ix2 r j)
      = lm (ix3 (0 : Fin 1) (0 : Fin 1) j) := by
  rw [broadcastTo_apply _ broadcasts_S1x512_S256x512 (ix2 r j) (ix2 (0 : Fin 1) j) (fun a => by
    match a with
    | ⟨0, _⟩ => rfl
    | ⟨1, _⟩ => rfl)]
  exact shapeCast_apply lm _ _ _ (by
    rw [Shape.rowMajor_val_three, Shape.rowMajor_val_two]
    show ((0 : ℕ) * 1 + 0) * 512 + j.val = 0 * 512 + j.val
    omega)

/-- The score of key `j` of the chunk for query row `r`. -/
theorem scoresOf_apply (qb : FVec Ideal S256x64 .bf16) (kc : Vec Ideal S1x512x64 .bf16) (lm : Vec Ideal S1x1x512 .f32)
    (r : Fin 256) (j : Fin 512) :
    scoresOf qb kc lm (ix2 r j)
      = (∑ d : Fin 64, qb (ix2 r d) * kc (ix3 (0 : Fin 1) j d)) + lm (ix3 (0 : Fin 1) (0 : Fin 1) j) := by
  unfold scoresOf
  rw [addf_apply, lmRows_apply]
  congr 1
  simp only [matmul]
  rw [Ideal.matmul_constant_zero_apply,
    ← Equiv.sum_comp (contrEquiv1 dot_S256x64_S512x64_S256x512_1_1_0_0_n_n 64 rfl rfl).symm]
  refine Finset.sum_congr rfl fun k _ => ?_
  have hk := contrEquiv1_symm_val dot_S256x64_S512x64_S256x512_1_1_0_0_n_n 64 rfl rfl k
  have el : dot_S256x64_S512x64_S256x512_1_1_0_0_n_n.lhsIdx (ix2 r j)
      ((contrEquiv1 dot_S256x64_S512x64_S256x512_1_1_0_0_n_n 64 rfl rfl).symm k) = ix2 r k := funext fun a => Fin.ext (by
    match a with
    | ⟨0, _⟩ => exact qk_lhs0 _ _
    | ⟨1, _⟩ => exact (qk_lhs1 _ _).trans hk)
  have er : dot_S256x64_S512x64_S256x512_1_1_0_0_n_n.rhsIdx (ix2 r j)
      ((contrEquiv1 dot_S256x64_S512x64_S256x512_1_1_0_0_n_n 64 rfl rfl).symm k) = ix2 j k := funext fun a => Fin.ext (by
    match a with
    | ⟨0, _⟩ => exact qk_rhs0 _ _
    | ⟨1, _⟩ => exact (qk_rhs1 _ _).trans hk)
  rw [el, er, chunkMat_apply]

/-! ## Reductions along a query row, and the second contraction -/

/-- A vector's exponential is taken entry by entry. -/
theorem exp_at {s : Shape} {φ : FTy} (v : FVec Ideal s φ) (i : s.Idx) : exp v i = Ideal.exp (v i) := rfl

/-- The word of −∞ denotes the bottom element. -/
theorem ofBits_neg_inf : Ideal.ofBits .f32 0xFF800000#32 = ⊥ := by simp [Ideal.ofBits, Ideal.ieee]

/-- Folding `max` from −∞ over a finite set is taking its supremum: each is the least upper bound. -/
theorem fold_max_bot_eq_sup {ι : Type} (s : Finset ι) (f : ι → EReal) : s.fold max ⊥ f = s.sup f := by
  apply le_antisymm
  · exact (Finset.fold_max_le _).2 ⟨bot_le, fun x hx => Finset.le_sup hx⟩
  · exact Finset.sup_le fun x hx => (Finset.le_fold_max _).2 (Or.inr ⟨x, hx, le_rfl⟩)

/-- Inserting key `j` on the reduced axis of row `r` gives the entry `(r, j)`. -/
theorem lift_row (r : Fin 256) (j : Fin 512) : reduces_S256x512_S256.lift (ix1 r) j = ix2 r j :=
  funext fun a => Fin.ext (by match a with | ⟨0, _⟩ => rfl | ⟨1, _⟩ => rfl)

/-- The largest entry of row `r`, kept as a column. -/
theorem rowMaxOf_apply (s : FVec Ideal S256x512 .f32) (r : Fin 256) :
    shapeCast S256x1 (multiReduction .maximumf [1] S256 s 0xFF800000#32 reduces_S256x512_S256 (.inl rfl) rfl) shapeCasts_S256_S256x1
        (ix2 r (0 : Fin 1))
      = Finset.univ.sup fun j : Fin 512 => s (ix2 r j) := by
  rw [Cert.LibColumn.shapeCast_a_a1_apply]
  refine (Ideal.multiReduction_maximumf_single s _ reduces_S256x512_S256 _ _ (ix1 r)).trans ?_
  show Finset.fold max (Ideal.ofBits .f32 0xFF800000#32) (s ∘ reduces_S256x512_S256.lift (ix1 r)) Finset.univ = _
  rw [ofBits_neg_inf, fold_max_bot_eq_sup]
  exact congrArg (Finset.univ.sup) (funext fun j => congrArg s (lift_row r j))

/-- The sum of the entries of row `r`, kept as a column. -/
theorem rowSumOf_apply (p : FVec Ideal S256x512 .f32) (r : Fin 256) :
    shapeCast S256x1 (multiReduction .add [1] S256 p 0x00000000#32 reduces_S256x512_S256 (.inl rfl) rfl) shapeCasts_S256_S256x1
        (ix2 r (0 : Fin 1))
      = ∑ j : Fin 512, p (ix2 r j) := by
  rw [Cert.LibColumn.shapeCast_a_a1_apply]
  refine (Ideal.multiReduction_add_single p _ reduces_S256x512_S256 _ _ (ix1 r)).trans ?_
  exact Finset.sum_congr rfl fun j _ => congrArg p (lift_row r j)

/-- A column of row values repeated across the 512 keys, or across the 64 output columns. -/
theorem colKeys_apply (m : FVec Ideal S256x1 .f32) (r : Fin 256) (j : Fin 512) :
    broadcastTo S256x512 m broadcasts_S256x1_S256x512 (ix2 r j) = m (ix2 r (0 : Fin 1)) :=
  Cert.LibColumn.broadcastTo_a1_ab_apply m broadcasts_S256x1_S256x512 r j
theorem colOut_apply (m : FVec Ideal S256x1 .f32) (r : Fin 256) (d : Fin 64) :
    broadcastTo S256x64 m broadcasts_S256x1_S256x64 (ix2 r d) = m (ix2 r (0 : Fin 1)) :=
  Cert.LibColumn.broadcastTo_a1_ab_apply m broadcasts_S256x1_S256x64 r d

/-- The exponentials of a row's scores shifted by the row's new maximum. -/
theorem shifted_apply (s : FVec Ideal S256x512 .f32) (m' : FVec Ideal S256x1 .f32) (r : Fin 256) (j : Fin 512) :
    exp (subf s (broadcastTo S256x512 m' broadcasts_S256x1_S256x512)) (ix2 r j)
      = Ideal.exp (s (ix2 r j) - m' (ix2 r (0 : Fin 1))) := by
  rw [exp_at, subf_apply, colKeys_apply]

/-- Weights times the chunk's values at `(r, d)`: the sum over the chunk's 512 keys. -/
theorem weighted_apply (p : FVec Ideal S256x512 .f32) (vc : FVec Ideal S1x512x64 .bf16) (r : Fin 256) (d : Fin 64) :
    matmul (φ₁ := .bf16) (φ₂ := .bf16) dot_S256x512_S512x64_S256x64_1_0_0_1_n_n none (truncf .bf16 p bitsLt_bf16_f32)
        (shapeCast S512x64 vc shapeCasts_S1x512x64_S512x64) (constant S256x64 .f32 0x00000000#32) (ix2 r d)
      = ∑ j : Fin 512, p (ix2 r j) * vc (ix3 (0 : Fin 1) j d) := by
  simp only [matmul]
  rw [Ideal.matmul_constant_zero_apply,
    ← Equiv.sum_comp (contrEquiv1 dot_S256x512_S512x64_S256x64_1_0_0_1_n_n 512 rfl rfl).symm]
  refine Finset.sum_congr rfl fun k _ => ?_
  have hk := contrEquiv1_symm_val dot_S256x512_S512x64_S256x64_1_0_0_1_n_n 512 rfl rfl k
  have el : dot_S256x512_S512x64_S256x64_1_0_0_1_n_n.lhsIdx (ix2 r d)
      ((contrEquiv1 dot_S256x512_S512x64_S256x64_1_0_0_1_n_n 512 rfl rfl).symm k) = ix2 r k := funext fun a => Fin.ext (by
    match a with
    | ⟨0, _⟩ => exact pv_lhs0 _ _
    | ⟨1, _⟩ => exact (pv_lhs1 _ _).trans hk)
  have er : dot_S256x512_S512x64_S256x64_1_0_0_1_n_n.rhsIdx (ix2 r d)
      ((contrEquiv1 dot_S256x512_S512x64_S256x64_1_0_0_1_n_n 512 rfl rfl).symm k) = ix2 k d := funext fun a => Fin.ext (by
    match a with
    | ⟨0, _⟩ => exact (pv_rhs0 _ _).trans hk
    | ⟨1, _⟩ => exact pv_rhs1 _ _)
  rw [el, er, truncf_apply, chunkMat_apply]

/-! ## One chunk of the online softmax, at a query row -/

theorem newMax_apply (m : FVec Ideal S256x1 .f32) (s : FVec Ideal S256x512 .f32) (r : Fin 256) :
    newMax m s (ix2 r (0 : Fin 1)) = max (m (ix2 r (0 : Fin 1))) (Finset.univ.sup fun j : Fin 512 => s (ix2 r j)) := by
  unfold newMax
  rw [maximumf_apply, rowMaxOf_apply]

variable (qb : FVec Ideal S256x64 .bf16) (st : State Ideal) (kc vc : Vec Ideal S1x512x64 .bf16) (lm : Vec Ideal S1x1x512 .f32)

/-- The running maximum after the chunk. -/
theorem step_m_apply (r : Fin 256) :
    (step qb st kc vc lm).m (ix2 r (0 : Fin 1))
      = max (st.m (ix2 r (0 : Fin 1))) (Finset.univ.sup fun j : Fin 512 => scoresOf qb kc lm (ix2 r j)) :=
  newMax_apply _ _ r

/-- The running denominator after the chunk: the old one re-based to the new maximum, plus the chunk's shifted exponentials. -/
theorem step_l_apply (r : Fin 256) :
    (step qb st kc vc lm).l (ix2 r (0 : Fin 1))
      = Ideal.exp (st.m (ix2 r (0 : Fin 1)) - (step qb st kc vc lm).m (ix2 r (0 : Fin 1))) * st.l (ix2 r (0 : Fin 1))
        + ∑ j : Fin 512, Ideal.exp (scoresOf qb kc lm (ix2 r j) - (step qb st kc vc lm).m (ix2 r (0 : Fin 1))) := by
  show addf (mulf (exp (subf st.m (newMax st.m (scoresOf qb kc lm)))) st.l) _ (ix2 r (0 : Fin 1)) = _
  rw [addf_apply, mulf_apply, exp_at, subf_apply, rowSumOf_apply]
  congr 1
  exact Finset.sum_congr rfl fun j _ => shifted_apply _ _ r j

/-- The running numerator after the chunk, at column `d`: re-based likewise, plus the chunk's weighted values. -/
theorem step_acc_apply (r : Fin 256) (d : Fin 64) :
    (step qb st kc vc lm).acc (ix2 r d)
      = Ideal.exp (st.m (ix2 r (0 : Fin 1)) - (step qb st kc vc lm).m (ix2 r (0 : Fin 1))) * st.acc (ix2 r d)
        + ∑ j : Fin 512, Ideal.exp (scoresOf qb kc lm (ix2 r j) - (step qb st kc vc lm).m (ix2 r (0 : Fin 1)))
            * vc (ix3 (0 : Fin 1) j d) := by
  show addf (mulf (broadcastTo S256x64 (exp (subf st.m (newMax st.m (scoresOf qb kc lm)))) broadcasts_S256x1_S256x64) st.acc) _ (ix2 r d) = _
  rw [addf_apply, mulf_apply, colOut_apply, exp_at, subf_apply, weighted_apply]
  congr 1
  exact Finset.sum_congr rfl fun j _ => congrArg (· * vc (ix3 (0 : Fin 1) j d)) (shifted_apply _ _ r j)

end Cert.KernelIdeal.Block

end
-- ==== Proof.ExpShift.lean ====
/-
  Shifted exponentials on the extended reals, and the chunk-by-chunk softmax sums built from them.

  For extended reals `x ≤ m` with `m ≠ +∞` the shifted exponential `exp (x − m)` is a real number in `[0, 1]`
  (`(−∞) − (−∞) = −∞` and `exp (−∞) = 0`); `se x m` names that real. Shifts compose: for `x ≤ m ≤ m'`,
  `se m m' · se x m = se x m'`. From this, the running maximum, denominator and numerator of a softmax taken over
  chunks of keys are, after any set `S` of chunks, the maximum and the shifted sums over exactly the keys of `S`
  (`Inv`, `Inv.step`); and a numerator divided once by a positive denominator is the sum of the divided weights
  (`div_once`).
-/
import Idealize.ShloMosaic.PureOps.Ideal

noncomputable section

open scoped BigOperators

namespace Cert.Attn

open Idealize.ShloMosaic

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real value of the shifted exponential `exp (x − m)`. -/
def se (x m : EReal) : ℝ := (Ideal.exp (x - m)).toReal

theorem se_bot (m : EReal) : se ⊥ m = 0 := by
  unfold se
  rw [EReal.bot_sub, Ideal.exp_bot, EReal.toReal_zero]

theorem se_coe (x m : ℝ) : se (x : EReal) (m : EReal) = Real.exp (x - m) := by
  unfold se
  rw [← EReal.coe_sub, Ideal.exp_coe, EReal.toReal_coe]

theorem se_nonneg (x m : EReal) (hxm : x ≤ m) (hm : m ≠ ⊤) : 0 ≤ se x m := by
  induction m using EReal.rec with
  | bot => rw [le_bot_iff.mp hxm, se_bot]
  | top => exact absurd rfl hm
  | coe r =>
    induction x using EReal.rec with
    | bot => rw [se_bot]
    | top => exact absurd hxm (by simp)
    | coe y => rw [se_coe]; exact (Real.exp_pos _).le

theorem se_pos (x m : ℝ) : 0 < se (x : EReal) (m : EReal) := by rw [se_coe]; exact Real.exp_pos _

/-- For `x ≤ m < +∞` the shifted exponential is the real `se x m`. -/
theorem exp_sub_eq (x m : EReal) (hxm : x ≤ m) (hm : m ≠ ⊤) : Ideal.exp (x - m) = (se x m : EReal) := by
  induction m using EReal.rec with
  | bot =>
    rw [le_bot_iff.mp hxm, se_bot, EReal.bot_sub, Ideal.exp_bot, EReal.coe_zero]
  | top => exact absurd rfl hm
  | coe r =>
    induction x using EReal.rec with
    | bot => rw [se_bot, EReal.bot_sub, Ideal.exp_bot, EReal.coe_zero]
    | top => exact absurd hxm (by simp)
    | coe y => rw [se_coe, ← EReal.coe_sub, Ideal.exp_coe]

/-- Shifts compose: re-basing from `m` to a larger `m'` multiplies by `exp (m − m')`. -/
theorem se_mul (x m m' : EReal) (h1 : x ≤ m) (h2 : m ≤ m') (h3 : m' ≠ ⊤) : se m m' * se x m = se x m' := by
  induction m' using EReal.rec with
  | bot =>
    have hm : m = ⊥ := le_bot_iff.mp h2
    subst hm
    rw [le_bot_iff.mp h1, se_bot, mul_zero]
  | top => exact absurd rfl h3
  | coe r' =>
    induction m using EReal.rec with
    | bot => rw [le_bot_iff.mp h1, se_bot, se_bot, mul_zero]
    | top => exact absurd h2 (by simp)
    | coe r =>
      induction x using EReal.rec with
      | bot => rw [se_bot, se_bot, mul_zero]
      | top => exact absurd h1 (by simp)
      | coe y => rw [se_coe, se_coe, se_coe, ← Real.exp_add]; congr 1; ring

section Chunks

variable {C J : Type} [Fintype C] [DecidableEq C] [Fintype J]
variable (s : C → J → EReal) (v : C → J → ℝ)

/-- The largest score among the chunks of `S`. -/
def supOver (S : Finset C) : EReal := S.sup fun c => Finset.univ.sup (s c)

theorem le_supOver (S : Finset C) {c : C} (hc : c ∈ S) (j : J) : s c j ≤ supOver s S :=
  le_trans (Finset.le_sup (f := s c) (Finset.mem_univ j)) (Finset.le_sup (f := fun c => Finset.univ.sup (s c)) hc)

theorem supOver_ne_top (hs : ∀ c j, s c j ≠ ⊤) (S : Finset C) : supOver s S ≠ ⊤ := by
  refine (lt_top_iff_ne_top.mp ?_)
  refine (Finset.sup_lt_iff (bot_lt_top)).mpr fun c _ => ?_
  exact (Finset.sup_lt_iff (bot_lt_top)).mpr fun j _ => lt_top_iff_ne_top.mpr (hs c j)

theorem supOver_insert (S : Finset C) (c : C) : supOver s (insert c S) = max (supOver s S) (Finset.univ.sup (s c)) := by
  unfold supOver
  rw [Finset.sup_insert]
  exact max_comm _ _

/-- After the chunks of `S`: `m` is their largest score, `l` the sum of their shifted exponentials, `a` that sum
    weighted by the values. -/
structure Inv (S : Finset C) (m l a : EReal) : Prop where
  hm : m = supOver s S
  hl : l = ((∑ c ∈ S, ∑ j, se (s c j) m : ℝ) : EReal)
  ha : a = ((∑ c ∈ S, ∑ j, se (s c j) m * v c j : ℝ) : EReal)

theorem Inv.empty : Inv s v ∅ ⊥ 0 0 :=
  ⟨by unfold supOver; rw [Finset.sup_empty], by rw [Finset.sum_empty, EReal.coe_zero], by rw [Finset.sum_empty, EReal.coe_zero]⟩

/-- One more chunk `c`: the maximum grows to `m'`, the old sums are re-based by `exp (m − m')`, and the chunk's own
    shifted exponentials are added. -/
theorem Inv.step (hs : ∀ c j, s c j ≠ ⊤) {S : Finset C} {m l a : EReal} (h : Inv s v S m l a) (c : C) (hc : c ∉ S) :
    Inv s v (insert c S) (max m (Finset.univ.sup (s c)))
      (Ideal.exp (m - max m (Finset.univ.sup (s c))) * l + ∑ j, Ideal.exp (s c j - max m (Finset.univ.sup (s c))))
      (Ideal.exp (m - max m (Finset.univ.sup (s c))) * a
        + ∑ j, Ideal.exp (s c j - max m (Finset.univ.sup (s c))) * ((v c j : ℝ) : EReal)) := by
  obtain ⟨hm, hl, ha⟩ := h
  have hm' : max m (Finset.univ.sup (s c)) = supOver s (insert c S) := by rw [supOver_insert, hm]
  set m' := max m (Finset.univ.sup (s c)) with hm'def
  have hm'top : m' ≠ ⊤ := by rw [hm']; exact supOver_ne_top s hs _
  have hmm' : m ≤ m' := le_max_left _ _
  have hcj : ∀ j, s c j ≤ m' := fun j => le_trans (Finset.le_sup (f := s c) (Finset.mem_univ j)) (le_max_right _ _)
  have hSj : ∀ c' ∈ S, ∀ j, s c' j ≤ m := fun c' hc' j => by rw [hm]; exact le_supOver s S hc' j
  have hα : Ideal.exp (m - m') = (se m m' : EReal) := exp_sub_eq m m' hmm' hm'top
  have hp : ∀ j, Ideal.exp (s c j - m') = (se (s c j) m' : EReal) := fun j => exp_sub_eq _ _ (hcj j) hm'top
  have hown : (∑ j, Ideal.exp (s c j - m')) = ((∑ j, se (s c j) m' : ℝ) : EReal) := by
    rw [coe_sum]; exact Finset.sum_congr rfl fun j _ => hp j
  have hownv : (∑ j, Ideal.exp (s c j - m') * ((v c j : ℝ) : EReal)) = ((∑ j, se (s c j) m' * v c j : ℝ) : EReal) := by
    rw [coe_sum]; exact Finset.sum_congr rfl fun j _ => by rw [hp j, ← EReal.coe_mul]
  have hold : se m m' * (∑ c' ∈ S, ∑ j, se (s c' j) m) = ∑ c' ∈ S, ∑ j, se (s c' j) m' := by
    rw [Finset.mul_sum]
    refine Finset.sum_congr rfl fun c' hc' => ?_
    rw [Finset.mul_sum]
    exact Finset.sum_congr rfl fun j _ => se_mul _ _ _ (hSj c' hc' j) hmm' hm'top
  have holdv : se m m' * (∑ c' ∈ S, ∑ j, se (s c' j) m * v c' j) = ∑ c' ∈ S, ∑ j, se (s c' j) m' * v c' j := by
    rw [Finset.mul_sum]
    refine Finset.sum_congr rfl fun c' hc' => ?_
    rw [Finset.mul_sum]
    refine Finset.sum_congr rfl fun j _ => ?_
    rw [← mul_assoc, se_mul _ _ _ (hSj c' hc' j) hmm' hm'top]
  refine ⟨hm', ?_, ?_⟩
  · rw [hα, hl, hown, ← EReal.coe_mul, ← EReal.coe_add, hold, Finset.sum_insert hc, add_comm]
  · rw [hα, ha, hownv, ← EReal.coe_mul, ← EReal.coe_add, holdv, Finset.sum_insert hc, add_comm]

/-- The softmax denominator taken over all chunks: the shifted exponentials of every score, summed. -/
def den (s : C → J → EReal) : ℝ := ∑ c, ∑ j, se (s c j) (supOver s Finset.univ)

/-- The softmax numerator taken over all chunks: the same exponentials weighted by the values. -/
def numer (s : C → J → EReal) (v : C → J → ℝ) : ℝ := ∑ c, ∑ j, se (s c j) (supOver s Finset.univ) * v c j

/-- Once every chunk has been taken, the three running quantities are the overall maximum, denominator and numerator. -/
theorem Inv.univ_eq {m l a : EReal} (h : Inv s v Finset.univ m l a) :
    m = supOver s Finset.univ ∧ l = ((den s : ℝ) : EReal) ∧ a = ((numer s v : ℝ) : EReal) := by
  obtain ⟨hm, hl, ha⟩ := h
  subst hm
  exact ⟨rfl, hl, ha⟩

end Chunks

/-- A numerator divided once by a positive denominator is the sum of the divided weights: for reals `e k`, `w k` and
    `L > 0`, `(Σ e·w) · (1 / L) = Σ (e / L) · w` on the extended reals. -/
theorem div_once {K : Type} [Fintype K] (e w : K → ℝ) (L : ℝ) (hL : 0 < L) :
    ((∑ k, e k * w k : ℝ) : EReal) * Ideal.div 1 (L : EReal)
      = ∑ k, Ideal.div ((e k : ℝ) : EReal) (L : EReal) * ((w k : ℝ) : EReal) := by
  have hne : L ≠ 0 := hL.ne'
  have hr : (∑ k, Ideal.div ((e k : ℝ) : EReal) (L : EReal) * ((w k : ℝ) : EReal))
      = ((∑ k, e k * (1 / L) * w k : ℝ) : EReal) := by
    rw [coe_sum]
    exact Finset.sum_congr rfl fun k _ => by rw [Ideal.div_coe hne, ← EReal.coe_mul, ← EReal.coe_mul]
  rw [hr, Ideal.div_coe hne, one_mul, ← EReal.coe_mul, Finset.sum_mul]
  congr 1
  exact Finset.sum_congr rfl fun k _ => by ring

end Cert.Attn

end
-- ==== Proof.BlockValue.lean ====
/-
  One output block at an index: the eight chunks of the online softmax, summed up.

  Fix a query row `r` of the tile and an output column `d`. After the first `n` chunks the row's running maximum is
  the largest score among those chunks' keys, its running denominator the sum of their exponentials shifted by that
  maximum, and its running numerator that sum weighted by the values of column `d` — by induction on `n`, each chunk
  re-basing the old sums to the new maximum. After all eight the stored entry is
  `numerator · (1 / denominator) · own + scaled query · (1 − own)`.
-/
import proofs.«112999_j62397284877035_2_alg».proof.Proof.StepRead
import proofs.«112999_j62397284877035_2_alg».proof.Proof.ExpShift

noncomputable section

open scoped BigOperators
open Idealize.ShloMosaic Idealize.ShloMosaic.TcCoe Idealize.ShloMosaic.ValueIdx

namespace Cert.KernelIdeal.Block

open Cert.KernelIdeal Cert.KernelIdeal.Gen Cert.Attn

variable (x0 : Vec Ideal S1x256x64 .f32) (x1 x2 : Vec Ideal S1x4096x64 .bf16) (x3 : Vec Ideal S1x1x4096 .f32)
  (x4 : Vec Ideal S1x256x1 .f32)

/-- The score of key `j` of chunk `c` for query row `r` of the tile. -/
def rowScore (r : Fin 256) (c : Fin 8) (j : Fin 512) : EReal :=
  scoresOf (scaledB x0) (chunk x1 c) (lmChunk x3 c) (ix2 r j)

/-- The values of column `d`, by chunk, read off a real-valued copy of the batch's values. -/
def rowVal (v2 : S1x4096x64.Idx → ℝ) (d : Fin 64) (c : Fin 8) (j : Fin 512) : ℝ :=
  v2 (ix3 (0 : Fin 1) ⟨512 * c.val + j.val, key_lt c j⟩ d)

/-! ## Before the first chunk -/

theorem init_m (r : Fin 256) : (init : State Ideal).m (ix2 r (0 : Fin 1)) = ⊥ := ofBits_neg_inf
theorem init_l (r : Fin 256) : (init : State Ideal).l (ix2 r (0 : Fin 1)) = 0 := Ideal.ofBits_zero_f32
theorem init_acc (r : Fin 256) (d : Fin 64) : (init : State Ideal).acc (ix2 r d) = 0 := Ideal.ofBits_zero_f32

theorem stateAfter_succ (n : ℕ) (h : n < 8) :
    stateAfter x0 x1 x2 x3 (n + 1)
      = step (scaledB x0) (stateAfter x0 x1 x2 x3 n) (chunk x1 ⟨n, h⟩) (chunk x2 ⟨n, h⟩) (lmChunk x3 ⟨n, h⟩) := by
  rw [stateAfter, dif_pos h]

/-! ## After `n` chunks -/

variable (v2 : S1x4096x64.Idx → ℝ) (hx2 : ∀ i, x2 i = ((v2 i : ℝ) : EReal))
variable (hS : ∀ r c j, rowScore x0 x1 x3 r c j ≠ ⊤)

theorem below_succ (n : ℕ) (h : n < 8) :
    (Finset.univ.filter fun c : Fin 8 => c.val < n + 1) = insert (⟨n, h⟩ : Fin 8) (Finset.univ.filter fun c : Fin 8 => c.val < n) := by
  ext c
  simp only [Finset.mem_filter, Finset.mem_univ, true_and, Finset.mem_insert, Fin.ext_iff]
  omega

theorem not_below (n : ℕ) (h : n < 8) : (⟨n, h⟩ : Fin 8) ∉ Finset.univ.filter fun c : Fin 8 => c.val < n := by
  simp only [Finset.mem_filter, Finset.mem_univ, true_and, lt_irrefl, not_false_eq_true]

include hx2 hS in
/-- The running maximum, denominator and numerator of row `r` (column `d`) after `n` chunks are those of the keys of
    the chunks below `n`. -/
theorem inv_after (r : Fin 256) (d : Fin 64) : ∀ (n : ℕ), n ≤ 8 →
    Inv (rowScore x0 x1 x3 r) (rowVal v2 d) (Finset.univ.filter fun c : Fin 8 => c.val < n)
      ((stateAfter x0 x1 x2 x3 n).m (ix2 r (0 : Fin 1))) ((stateAfter x0 x1 x2 x3 n).l (ix2 r (0 : Fin 1)))
      ((stateAfter x0 x1 x2 x3 n).acc (ix2 r d))
  | 0, _ => by
    have h0 : (Finset.univ.filter fun c : Fin 8 => c.val < 0) = ∅ :=
      Finset.filter_false_of_mem fun c _ => Nat.not_lt_zero _
    rw [h0]
    show Inv _ _ ∅ ((init : State Ideal).m _) ((init : State Ideal).l _) ((init : State Ideal).acc _)
    rw [init_m, init_l, init_acc]
    exact Inv.empty _ _
  | n + 1, hn => by
    have h : n < 8 := hn
    have ih := inv_after r d n (Nat.le_of_lt h)
    have key := Inv.step (rowScore x0 x1 x3 r) (rowVal v2 d) (hS r) ih ⟨n, h⟩ (not_below n h)
    have e1 := step_m_apply (scaledB x0) (stateAfter x0 x1 x2 x3 n) (chunk x1 ⟨n, h⟩) (chunk x2 ⟨n, h⟩) (lmChunk x3 ⟨n, h⟩) r
    have e2 := step_l_apply (scaledB x0) (stateAfter x0 x1 x2 x3 n) (chunk x1 ⟨n, h⟩) (chunk x2 ⟨n, h⟩) (lmChunk x3 ⟨n, h⟩) r
    have e3 := step_acc_apply (scaledB x0) (stateAfter x0 x1 x2 x3 n) (chunk x1 ⟨n, h⟩) (chunk x2 ⟨n, h⟩) (lmChunk x3 ⟨n, h⟩) r d
    rw [e1] at e2 e3
    have hv : ∀ j : Fin 512, chunk x2 ⟨n, h⟩ (ix3 (0 : Fin 1) j d) = ((rowVal v2 d ⟨n, h⟩ j : ℝ) : EReal) := fun j => by
      rw [chunk_apply, hx2]; rfl
    rw [Finset.sum_congr rfl (fun j _ => by rw [hv j])] at e3
    rw [below_succ n h, stateAfter_succ x0 x1 x2 x3 n h, e1, e2, e3]
    exact key

/-! ## The stored entry -/

/-- The scaled query at `(r, d)`. -/
theorem scaled_apply (r : Fin 256) (d : Fin 64) :
    scaled x0 (ix2 r d) = x0 (ix3 (0 : Fin 1) r d) * Ideal.ofBits .f32 0x3E000000#32 := by
  unfold scaled
  rw [mulf_apply, broadcast_apply]
  congr 1
  exact shapeCast_apply x0 _ _ _ (by
    rw [Shape.rowMajor_val_three, Shape.rowMajor_val_two]
    show ((0 : ℕ) * 256 + r.val) * 64 + d.val = r.val * 64 + d.val
    omega)

/-- The tile's own mask column at row `r`. -/
theorem own_apply (r : Fin 256) :
    shapeCast S256x1 x4 shapeCasts_S1x256x1_S256x1 (ix2 r (0 : Fin 1)) = x4 (ix3 (0 : Fin 1) r (0 : Fin 1)) :=
  shapeCast_apply x4 _ _ _ (by
    rw [Shape.rowMajor_val_three, Shape.rowMajor_val_two]
    show ((0 : ℕ) * 256 + r.val) * 1 + 0 = r.val * 1 + 0
    omega)

/-- The blend at `(r, d)`, from a final state. -/
theorem finish_apply (st : State Ideal) (r : Fin 256) (d : Fin 64) :
    finish x0 st x4 (ix3 (0 : Fin 1) r d)
      = (st.acc (ix2 r d) * Ideal.div (Ideal.ofBits .f32 0x3F800000#32) (st.l (ix2 r (0 : Fin 1))))
            * x4 (ix3 (0 : Fin 1) r (0 : Fin 1))
          + (x0 (ix3 (0 : Fin 1) r d) * Ideal.ofBits .f32 0x3E000000#32)
            * (Ideal.ofBits .f32 0x3F800000#32 - x4 (ix3 (0 : Fin 1) r (0 : Fin 1))) := by
  unfold finish
  rw [shapeCast_apply _ shapeCasts_S256x64_S1x256x64 (ix3 (0 : Fin 1) r d) (ix2 r d) (by
    rw [Shape.rowMajor_val_three, Shape.rowMajor_val_two]
    show r.val * 64 + d.val = ((0 : ℕ) * 256 + r.val) * 64 + d.val
    omega)]
  rw [addf_apply, mulf_apply, mulf_apply, mulf_apply, colOut_apply, colOut_apply, colOut_apply, divf_apply, subf_apply,
    broadcast_apply, own_apply, scaled_apply]
  rfl

theorem below_eight : (Finset.univ.filter fun c : Fin 8 => c.val < 8) = Finset.univ :=
  Finset.filter_true_of_mem fun c _ => c.isLt

include hx2 hS in
/-- The block at `(r, d)`: numerator over all chunks times the reciprocal of the denominator, blended with the scaled
    query by the row's own mask. -/
theorem blockOut_apply (r : Fin 256) (d : Fin 64) :
    blockOut x0 x1 x2 x3 x4 (ix3 (0 : Fin 1) r d)
      = (((numer (rowScore x0 x1 x3 r) (rowVal v2 d) : ℝ) : EReal)
            * Ideal.div (Ideal.ofBits .f32 0x3F800000#32) ((den (rowScore x0 x1 x3 r) : ℝ) : EReal))
            * x4 (ix3 (0 : Fin 1) r (0 : Fin 1))
          + (x0 (ix3 (0 : Fin 1) r d) * Ideal.ofBits .f32 0x3E000000#32)
            * (Ideal.ofBits .f32 0x3F800000#32 - x4 (ix3 (0 : Fin 1) r (0 : Fin 1))) := by
  unfold blockOut
  rw [finish_apply]
  have h8 := inv_after x0 x1 x2 x3 v2 hx2 hS r d 8 le_rfl
  rw [below_eight] at h8
  obtain ⟨-, hl, ha⟩ := h8.univ_eq
  rw [hl, ha]

end Cert.KernelIdeal.Block

end
-- ==== Proof.HostSide.lean ====
/-
  What the kernel's region finds in the arrays its host operations prepare.

  Before the region the program narrows the keys and the values to the matrix unit's input format (no change of
  value on the extended reals), takes the logarithm of the mask and lays it out as one row per batch, `[4, 1, 4096]`,
  and lays the mask itself out as one column per batch, `[4, 4096, 1]`. Read at an index: the prepared keys and
  values are the arguments' entries; the log-mask row at `(b, 0, j)` is `log mask[b, j]`; the mask column at
  `(b, i, 0)` is `mask[b, i]`.
-/
import proofs.«112999_j62397284877035_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx Idealize.ShloMosaic.StableHlo

namespace Cert.KernelIdeal.Host

open Cert.KernelIdeal Cert.KernelIdeal.Gen

variable (m : (ℓ : Loc nD τ sig) → Buf (Elt Ideal) ℓ)

/-- The keys as the region finds them: the argument, narrowed. -/
theorem V_keys (c : Dev nD) :
    (V m c main_v0 : S4x4096x64.Idx → EReal)
      = (truncf .bf16 (m ((c : Thread nD τ).loc main_arg1) : FVec Ideal S4x4096x64 .f32) bitsLt_bf16_f32 : FVec Ideal S4x4096x64 .bf16) := by
  dsimp only [Gen.V, Gen.hostOps0]
  after_results

/-- The values as the region finds them: the argument, narrowed. -/
theorem V_vals (c : Dev nD) :
    (V m c main_v1 : S4x4096x64.Idx → EReal)
      = (truncf .bf16 (m ((c : Thread nD τ).loc main_arg2) : FVec Ideal S4x4096x64 .f32) bitsLt_bf16_f32 : FVec Ideal S4x4096x64 .bf16) := by
  dsimp only [Gen.V, Gen.hostOps0]
  after_results

/-- The log-mask rows as the region finds them. -/
theorem V_logmask (c : Dev nD) :
    (V m c main_v3 : S4x1x4096.Idx → EReal)
      = shapeCast S4x1x4096 (Host.log (F := Ideal) (φ := .f32) (m ((c : Thread nD τ).loc main_arg3) : FVec Ideal S4x4096 .f32)) shapeCasts_S4x4096_S4x1x4096 := by
  dsimp only [Gen.V, Gen.hostOps0]
  after_results
  rfl

/-- The mask columns as the region finds them. -/
theorem V_own (c : Dev nD) :
    (V m c main_v4 : S4x4096x1.Idx → EReal)
      = shapeCast S4x4096x1 (m ((c : Thread nD τ).loc main_arg3) : FVec Ideal S4x4096 .f32) shapeCasts_S4x4096_S4x4096x1 := by
  dsimp only [Gen.V, Gen.hostOps0]
  after_results
  rfl

/-! ## Read at an index -/

theorem V_keys_apply (c : Dev nD) (x : S4x4096x64.Idx) :
    (V m c main_v0 : S4x4096x64.Idx → EReal) x = (m ((c : Thread nD τ).loc main_arg1) : S4x4096x64.Idx → EReal) x := by
  rw [V_keys]; rfl

theorem V_vals_apply (c : Dev nD) (x : S4x4096x64.Idx) :
    (V m c main_v1 : S4x4096x64.Idx → EReal) x = (m ((c : Thread nD τ).loc main_arg2) : S4x4096x64.Idx → EReal) x := by
  rw [V_vals]; rfl

theorem V_logmask_apply (c : Dev nD) (b : Fin 4) (j : Fin 4096) :
    (V m c main_v3 : S4x1x4096.Idx → EReal) (ix3 b (0 : Fin 1) j)
      = Ideal.log ((m ((c : Thread nD τ).loc main_arg3) : S4x4096.Idx → EReal) (ix2 b j)) := by
  rw [V_logmask]
  exact shapeCast_apply _ shapeCasts_S4x4096_S4x1x4096 (ix3 b (0 : Fin 1) j) (ix2 b j) (by
    rw [Shape.rowMajor_val_three, Shape.rowMajor_val_two]
    show b.val * 4096 + j.val = (b.val * 1 + 0) * 4096 + j.val
    omega)

theorem V_own_apply (c : Dev nD) (b : Fin 4) (i : Fin 4096) :
    (V m c main_v4 : S4x4096x1.Idx → EReal) (ix3 b i (0 : Fin 1))
      = (m ((c : Thread nD τ).loc main_arg3) : S4x4096.Idx → EReal) (ix2 b i) := by
  rw [V_own]
  exact shapeCast_apply _ shapeCasts_S4x4096_S4x4096x1 (ix3 b i (0 : Fin 1)) (ix2 b i) (by
    rw [Shape.rowMajor_val_three, Shape.rowMajor_val_two]
    show b.val * 4096 + i.val = (b.val * 4096 + i.val) * 1 + 0
    omega)

end Cert.KernelIdeal.Host

end
-- ==== Proof.Spec.lean ====
/-
  Masked scaled-dot-product attention with a pass-through blend, index by index on the extended reals.

  For a batch `b`, a query row `i` and a column `d`:
    sq b i d     = q[b,i,d] · (1/8)                                   (the query scaled by 1/√64)
    score b i j  = Σ_d' sq b i d' · k[b,j,d'] + log mask[b,j]          (log 0 = −∞ masks key j)
    rowMax b i   = sup_j score b i j
    wexp b i j   = exp (score b i j − rowMax b i)
    denom b i    = Σ_j wexp b i j
    attn b i d   = Σ_j (wexp b i j / denom b i) · v[b,j,d]
    G[b,i,d]     = attn b i d · mask[b,i] + sq b i d · (1 − mask[b,i])
-/
import Idealize.ShloMosaic.PureOps.Ideal
import Idealize.ShloMosaic.Lib.ValueIdx

noncomputable section

open scoped BigOperators

namespace Cert.Attn

open Idealize.ShloMosaic Idealize.ShloMosaic.ValueIdx

/-- The shape of the queries, keys, values and of the result: batch × sequence × width. -/
abbrev QShape : Shape := ⟨3, ![4, 4096, 64]⟩
/-- The shape of the mask: batch × sequence. -/
abbrev MShape : Shape := ⟨2, ![4, 4096]⟩

variable (q k v : QShape.Idx → EReal) (mask : MShape.Idx → EReal)

/-- The query scaled by 1/8 = 1/√64. -/
def sq (b : Fin 4) (i : Fin 4096) (d : Fin 64) : EReal := q (ix3 b i d) * ((1 / 8 : ℝ) : EReal)

/-- The score of key `j` for query `i`: the scaled dot product plus the logarithm of the key's mask. -/
def score (b : Fin 4) (i j : Fin 4096) : EReal :=
  (∑ d : Fin 64, sq q b i d * k (ix3 b j d)) + Ideal.log (mask (ix2 b j))

/-- The largest score of a query row. -/
def rowMax (b : Fin 4) (i : Fin 4096) : EReal := Finset.univ.sup fun j : Fin 4096 => score q k mask b i j

/-- The exponential of a score shifted by its row's maximum. -/
def wexp (b : Fin 4) (i j : Fin 4096) : EReal := Ideal.exp (score q k mask b i j - rowMax q k mask b i)

/-- The softmax denominator of a query row. -/
def denom (b : Fin 4) (i : Fin 4096) : EReal := ∑ j : Fin 4096, wexp q k mask b i j

/-- The attention output: the softmax weights applied to the values. -/
def attn (b : Fin 4) (i : Fin 4096) (d : Fin 64) : EReal :=
  ∑ j : Fin 4096, Ideal.div (wexp q k mask b i j) (denom q k mask b i) * v (ix3 b j d)

/-- The result at coordinates: the attention output blended with the scaled query by the row's own mask. -/
def gAt (b : Fin 4) (i : Fin 4096) (d : Fin 64) : EReal :=
  attn q k v mask b i d * mask (ix2 b i) + sq q b i d * (1 - mask (ix2 b i))

/-- The result array. -/
def G : QShape.Idx → EReal := fun idx => gAt q k v mask (idx 0) (idx 1) (idx 2)

theorem G_ix3 (b : Fin 4) (i : Fin 4096) (d : Fin 64) : G q k v mask (ix3 b i d) = gAt q k v mask b i d := rfl

end Cert.Attn

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.SoftmaxLaw.lean ====
/-
  The attention formula with its 4096 keys taken in eight chunks of 512, and its weights divided once.

  For real queries, keys and values and a real, nonnegative mask, the result `gAt` of the specification — a sum over
  all keys of weights each divided by the row's denominator — equals the numerator over all chunks times the
  reciprocal of the denominator, blended the same way. Two cases, by the row's own mask entry `μ`:
    μ = 0: both attention terms are multiplied by 0, and anything times 0 is 0;
    μ > 0: then `log μ` is a real number, so the row's own key has a real score, the row maximum is real, that key's
           shifted exponential is positive and so is the denominator; and for a positive real denominator,
           `(Σ e·v) · (1/L) = Σ (e/L) · v`.
-/
import proofs.«112999_j62397284877035_2_alg».proof.Proof.Spec
import proofs.«112999_j62397284877035_2_alg».proof.Proof.ExpShift
import proofs.«112999_j62397284877035_2_alg».proof.Proof.LibReindex

noncomputable section

open scoped BigOperators

namespace Cert.Attn

open Idealize.ShloMosaic Idealize.ShloMosaic.ValueIdx

/-- Key `j` of chunk `c` is key `512·c + j`. -/
theorem key_lt (c : Fin 8) (j : Fin 512) : 512 * c.val + j.val < 4096 := by
  have := c.isLt; have := j.isLt; omega

/-- Key `j` of chunk `c`, as a key of the sequence. -/
def keyOf (c : Fin 8) (j : Fin 512) : Fin 4096 := ⟨512 * c.val + j.val, key_lt c j⟩

variable (q k v : QShape.Idx → EReal) (mask : MShape.Idx → EReal)

/-- The scores of a query row, by chunk. -/
def chunkScore (b : Fin 4) (i : Fin 4096) (c : Fin 8) (j : Fin 512) : EReal := score q k mask b i (keyOf c j)

/-- A sum over the keys is the sum over the chunks of the sums over each chunk. -/
theorem sum_keys {M : Type*} [AddCommMonoid M] (f : Fin 4096 → M) : ∑ j, f j = ∑ c : Fin 8, ∑ j : Fin 512, f (keyOf c j) :=
  Cert.LibReindex.sum_mul_add' 8 512 rfl f

/-- Every key is key `j mod 512` of chunk `j / 512`. -/
theorem keyOf_div_mod (j : Fin 4096) :
    keyOf ⟨j.val / 512, by have := j.isLt; omega⟩ ⟨j.val % 512, Nat.mod_lt _ (by norm_num)⟩ = j :=
  Fin.ext (by show 512 * (j.val / 512) + j.val % 512 = j.val; exact Nat.div_add_mod _ _)

/-- The row maximum is the maximum over the chunks of each chunk's maximum. -/
theorem rowMax_eq (b : Fin 4) (i : Fin 4096) : rowMax q k mask b i = supOver (chunkScore q k mask b i) Finset.univ := by
  apply le_antisymm
  · refine Finset.sup_le fun j _ => ?_
    have h := le_supOver (chunkScore q k mask b i) Finset.univ (Finset.mem_univ ⟨j.val / 512, by have := j.isLt; omega⟩)
      ⟨j.val % 512, Nat.mod_lt _ (by norm_num)⟩
    unfold chunkScore at h
    rwa [keyOf_div_mod] at h
  · exact Finset.sup_le fun c _ => Finset.sup_le fun j _ => Finset.le_sup (f := fun j => score q k mask b i j) (Finset.mem_univ _)

section Real

variable (qr kr vr : QShape.Idx → ℝ) (mr : MShape.Idx → ℝ)
variable (hq : ∀ x, q x = (qr x : EReal)) (hk : ∀ x, k x = (kr x : EReal)) (hv : ∀ x, v x = (vr x : EReal))
variable (hm : ∀ x, mask x = (mr x : EReal)) (hm0 : ∀ x, 0 ≤ mr x)

include hq hk in
/-- The dot product of a real scaled query row with a real key row is a real number. -/
theorem dot_real (b : Fin 4) (i j : Fin 4096) :
    (∑ d : Fin 64, sq q b i d * k (ix3 b j d)) = ((∑ d : Fin 64, qr (ix3 b i d) * (1 / 8) * kr (ix3 b j d) : ℝ) : EReal) := by
  rw [coe_sum]
  refine Finset.sum_congr rfl fun d _ => ?_
  unfold sq
  rw [hq, hk, ← EReal.coe_mul, ← EReal.coe_mul]

include hq hk hm in
/-- No score is +∞: a real dot product plus the logarithm of a real number. -/
theorem score_ne_top (b : Fin 4) (i j : Fin 4096) : score q k mask b i j ≠ ⊤ := by
  unfold score
  rw [dot_real q k qr kr hq hk, hm]
  by_cases h0 : mr (ix2 b j) ≤ 0
  · rw [show Ideal.log ((mr (ix2 b j) : ℝ) : EReal) = ⊥ by show (if mr (ix2 b j) ≤ 0 then (⊥ : EReal) else _) = ⊥; rw [if_pos h0],
      EReal.add_bot]
    exact bot_ne_top
  · rw [show Ideal.log ((mr (ix2 b j) : ℝ) : EReal) = ((Real.log (mr (ix2 b j)) : ℝ) : EReal) by
        show (if mr (ix2 b j) ≤ 0 then (⊥ : EReal) else _) = _; rw [if_neg h0], ← EReal.coe_add]
    exact EReal.coe_ne_top _

include hq hk hm in
/-- A key whose mask entry is positive has a real score. -/
theorem score_real_of_pos (b : Fin 4) (i j : Fin 4096) (hpos : 0 < mr (ix2 b j)) : ∃ t : ℝ, score q k mask b i j = (t : EReal) := by
  unfold score
  rw [dot_real q k qr kr hq hk, hm,
    show Ideal.log ((mr (ix2 b j) : ℝ) : EReal) = ((Real.log (mr (ix2 b j)) : ℝ) : EReal) by
      show (if mr (ix2 b j) ≤ 0 then (⊥ : EReal) else _) = _; rw [if_neg (not_le.mpr hpos)], ← EReal.coe_add]
  exact ⟨_, rfl⟩

/-- An extended real that is at least a real number and is not +∞ is a real number. -/
theorem exists_real_of_ge_coe (x : EReal) (t : ℝ) (h1 : ((t : ℝ) : EReal) ≤ x) (h2 : x ≠ ⊤) : ∃ r : ℝ, x = (r : EReal) := by
  induction x using EReal.rec with
  | bot => exact absurd h1 (by simp)
  | coe r => exact ⟨r, rfl⟩
  | top => exact absurd rfl h2

/-- The values of a column, by chunk. -/
def chunkVal (b : Fin 4) (d : Fin 64) (c : Fin 8) (j : Fin 512) : ℝ := vr (ix3 b (keyOf c j) d)

include hq hk hm in
theorem chunkScore_ne_top (b : Fin 4) (i : Fin 4096) (c : Fin 8) (j : Fin 512) : chunkScore q k mask b i c j ≠ ⊤ :=
  score_ne_top q k mask qr kr mr hq hk hm b i (keyOf c j)

include hq hk hm in
/-- Each weight's numerator is the real shifted exponential of its chunked score. -/
theorem wexp_eq (b : Fin 4) (i : Fin 4096) (c : Fin 8) (j : Fin 512) :
    wexp q k mask b i (keyOf c j)
      = ((se (chunkScore q k mask b i c j) (supOver (chunkScore q k mask b i) Finset.univ) : ℝ) : EReal) := by
  unfold wexp
  rw [rowMax_eq]
  exact exp_sub_eq _ _ (le_supOver (chunkScore q k mask b i) Finset.univ (Finset.mem_univ c) j)
    (supOver_ne_top _ (chunkScore_ne_top q k mask qr kr mr hq hk hm b i) _)

include hq hk hm in
/-- The denominator is the real sum over all chunks. -/
theorem denom_eq (b : Fin 4) (i : Fin 4096) : denom q k mask b i = ((den (chunkScore q k mask b i) : ℝ) : EReal) := by
  unfold denom den
  rw [sum_keys, coe_sum]
  refine Finset.sum_congr rfl fun c _ => ?_
  rw [coe_sum]
  exact Finset.sum_congr rfl fun j _ => wexp_eq q k mask qr kr mr hq hk hm b i c j

include hq hk hv hm in
/-- The attention sum, taken chunk by chunk, each weight divided by the real denominator. -/
theorem attn_eq (b : Fin 4) (i : Fin 4096) (d : Fin 64) :
    attn q k v mask b i d
      = ∑ c : Fin 8, ∑ j : Fin 512,
          Ideal.div ((se (chunkScore q k mask b i c j) (supOver (chunkScore q k mask b i) Finset.univ) : ℝ) : EReal)
            ((den (chunkScore q k mask b i) : ℝ) : EReal) * ((chunkVal vr b d c j : ℝ) : EReal) := by
  unfold attn
  rw [sum_keys]
  refine Finset.sum_congr rfl fun c _ => Finset.sum_congr rfl fun j _ => ?_
  rw [wexp_eq q k mask qr kr mr hq hk hm, denom_eq q k mask qr kr mr hq hk hm, hv]
  rfl

include hq hk hm in
/-- A row whose own mask entry is positive has a positive denominator: its own key's shifted exponential is positive. -/
theorem den_pos (b : Fin 4) (i : Fin 4096) (hpos : 0 < mr (ix2 b i)) : 0 < den (chunkScore q k mask b i) := by
  obtain ⟨t, ht⟩ := score_real_of_pos q k mask qr kr mr hq hk hm b i i hpos
  have hi := keyOf_div_mod i
  set c0 : Fin 8 := ⟨i.val / 512, by have := i.isLt; omega⟩ with hc0
  set j0 : Fin 512 := ⟨i.val % 512, Nat.mod_lt _ (by norm_num)⟩ with hj0
  have hs0 : chunkScore q k mask b i c0 j0 = (t : EReal) := by unfold chunkScore; rw [hi]; exact ht
  have hnt := chunkScore_ne_top q k mask qr kr mr hq hk hm b i
  have hle : ((t : ℝ) : EReal) ≤ supOver (chunkScore q k mask b i) Finset.univ := by
    rw [← hs0]; exact le_supOver _ _ (Finset.mem_univ c0) j0
  obtain ⟨mm, hmm⟩ := exists_real_of_ge_coe _ t hle (supOver_ne_top _ hnt _)
  have hnn : ∀ c j, 0 ≤ se (chunkScore q k mask b i c j) (supOver (chunkScore q k mask b i) Finset.univ) := fun c j =>
    se_nonneg _ _ (le_supOver _ _ (Finset.mem_univ c) j) (supOver_ne_top _ hnt _)
  have h1 : 0 < se (chunkScore q k mask b i c0 j0) (supOver (chunkScore q k mask b i) Finset.univ) := by
    rw [hs0, hmm]; exact se_pos t mm
  have h2 : se (chunkScore q k mask b i c0 j0) (supOver (chunkScore q k mask b i) Finset.univ)
      ≤ ∑ j, se (chunkScore q k mask b i c0 j) (supOver (chunkScore q k mask b i) Finset.univ) :=
    Finset.single_le_sum (f := fun j => se (chunkScore q k mask b i c0 j) (supOver (chunkScore q k mask b i) Finset.univ))
      (fun j _ => hnn c0 j) (Finset.mem_univ j0)
  have h3 : (∑ j, se (chunkScore q k mask b i c0 j) (supOver (chunkScore q k mask b i) Finset.univ)) ≤ den (chunkScore q k mask b i) :=
    Finset.single_le_sum (f := fun c => ∑ j, se (chunkScore q k mask b i c j) (supOver (chunkScore q k mask b i) Finset.univ))
      (fun c _ => Finset.sum_nonneg fun j _ => hnn c j) (Finset.mem_univ c0)
  exact lt_of_lt_of_le h1 (le_trans h2 h3)

include hq hk hv hm hm0 in
/-- The specification's result with its weights divided once: numerator over all chunks times the reciprocal of the
    denominator, blended with the scaled query by the row's own mask. -/
theorem gAt_eq_divide_once (b : Fin 4) (i : Fin 4096) (d : Fin 64) :
    gAt q k v mask b i d
      = (((numer (chunkScore q k mask b i) (chunkVal vr b d) : ℝ) : EReal)
            * Ideal.div 1 ((den (chunkScore q k mask b i) : ℝ) : EReal)) * mask (ix2 b i)
          + sq q b i d * (1 - mask (ix2 b i)) := by
  unfold gAt
  congr 1
  rcases (hm0 (ix2 b i)).eq_or_lt with h0 | hpos
  · rw [hm, ← h0, EReal.coe_zero, mul_zero, mul_zero]
  · congr 1
    rw [attn_eq q k v mask qr kr vr mr hq hk hv hm]
    have hd := div_once (K := Fin 8 × Fin 512)
      (fun p => se (chunkScore q k mask b i p.1 p.2) (supOver (chunkScore q k mask b i) Finset.univ))
      (fun p => chunkVal vr b d p.1 p.2) (den (chunkScore q k mask b i)) (den_pos q k mask qr kr mr hq hk hm b i hpos)
    rw [Fintype.sum_prod_type, Fintype.sum_prod_type] at hd
    exact hd.symm

end Real

end Cert.Attn

end
-- ==== Proof.Bridge.lean ====
/-
  From blocks to the whole result array.

  The grid has 4 × 16 points; point `t` works on batch `b` and query tile `qi`, which are the block indices of its
  output window on the first two axes. Its query tile and its own-mask column are rows `256·qi … 256·qi + 255` of
  batch `b`; its keys, values and log-mask row are all of batch `b`. So entry `(r, d)` of the block it writes back
  is entry `(b, 256·qi + r, d)` of the attention formula `G` of the four argument arrays, and since the 64 blocks
  tile the result array, the array ends holding `G`.
-/
import proofs.«112999_j62397284877035_2_alg».proof.Proof.BlockValue
import proofs.«112999_j62397284877035_2_alg».proof.Proof.HostSide
import proofs.«112999_j62397284877035_2_alg».proof.Proof.SoftmaxLaw
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.KernelIdeal.Block Cert.KernelIdeal.Host Cert.Attn

variable (m : (ℓ : Loc nD τ sig) → Buf (Elt Ideal) ℓ) (ρ : Dev nD → PrngReg)

/-! ## The windows' block indices, decided over the grid -/

/-- The query and own-mask windows move with the output window on the batch and tile axes; the key, value and
    log-mask windows move with it on the batch axis only; every other block index is 0; and the output's block
    indices range over 4 batches and 16 tiles. -/
theorem idx_facts : ∀ t : Fin cfg0.N,
    win0_0.index t (0 : Fin 3) = win0_5.index t (0 : Fin 3) ∧ win0_0.index t (1 : Fin 3) = win0_5.index t (1 : Fin 3)
      ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = win0_5.index t (1 : Fin 3)
      ∧ win0_4.index t (2 : Fin 3) = 0
    ∧ win0_5.index t (0 : Fin 3) ≤ 3 ∧ win0_5.index t (1 : Fin 3) ≤ 15 ∧ win0_5.index t (2 : Fin 3) = 0 :=
  (by decide +kernel : ∀ t : Fin grid0.N, _)

/-- Every (batch, tile) pair is some point's. -/
theorem idx_onto : ∀ (b : Fin 4) (qi : Fin 16), ∃ t : Fin cfg0.N, win0_5.index t = ![b.val, qi.val, 0] :=
  (by decide +kernel : ∀ (b : Fin 4) (qi : Fin 16), ∃ t : Fin grid0.N, win0_5.index t = ![b.val, qi.val, 0])

/-- The batch of point `t`. -/
def batchOf (t : Fin cfg0.N) : Fin 4 := ⟨win0_5.index t (0 : Fin 3), by have := (idx_facts t).2.2.2.2.2.2.2.2.2.2.2.2.2.2.2.1; omega⟩

/-- Row `r` of point `t`'s query tile, as a row of the sequence. -/
def rowOf (t : Fin cfg0.N) (r : Fin 256) : Fin 4096 :=
  ⟨256 * win0_5.index t (1 : Fin 3) + r.val, by have := (idx_facts t).2.2.2.2.2.2.2.2.2.2.2.2.2.2.2.2.1; have := r.isLt; omega⟩

/-! ## The input blocks, read through their windows -/

/-- Entry `(r, d)` of the query tile is the query array at `(b, 256·qi + r, d)`. -/
theorem q_block (c : Dev nD) (t : Fin cfg0.N) (r : Fin 256) (d : Fin 64) :
    (iblk m c 0 t : Vec Ideal S1x256x64 .f32) (ix3 (0 : Fin 1) r d)
      = (V m c main_arg0 : S4x4096x64.Idx → EReal) (ix3 (batchOf t) (rowOf t r) d) := by
  show (V m c main_arg0 : S4x4096x64.Idx → EReal) (((cfg0.win 0).blk t).view.emb (ix3 (0 : Fin 1) r d)) = _
  refine congrArg _ (funext fun a => Fin.ext ?_)
  obtain ⟨e0, e1, e2, -⟩ := idx_facts t
  match a with
  | ⟨0, _⟩ => show win0_0.index t (0 : Fin 3) * 1 + 1 * 0 = win0_5.index t (0 : Fin 3); omega
  | ⟨1, _⟩ => show win0_0.index t (1 : Fin 3) * 256 + 1 * r.val = 256 * win0_5.index t (1 : Fin 3) + r.val; omega
  | ⟨2, _⟩ => show win0_0.index t (2 : Fin 3) * 64 + 1 * d.val = d.val; omega

/-- Entry `(j, d)` of the keys block is the prepared key array at `(b, j, d)`. -/
theorem k_block (c : Dev nD) (t : Fin cfg0.N) (j : Fin 4096) (d : Fin 64) :
    (iblk m c 1 t : Vec Ideal S1x4096x64 .bf16) (ix3 (0 : Fin 1) j d)
      = (V m c main_v0 : S4x4096x64.Idx → EReal) (ix3 (batchOf t) j d) := by
  show (V m c main_v0 : S4x4096x64.Idx → EReal) (((cfg0.win 1).blk t).view.emb (ix3 (0 : Fin 1) j d)) = _
  refine congrArg _ (funext fun a => Fin.ext ?_)
  obtain ⟨-, -, -, e0, e1, e2, -⟩ := idx_facts t
  match a with
  | ⟨0, _⟩ => show win0_1.index t (0 : Fin 3) * 1 + 1 * 0 = win0_5.index t (0 : Fin 3); omega
  | ⟨1, _⟩ => show win0_1.index t (1 : Fin 3) * 4096 + 1 * j.val = j.val; omega
  | ⟨2, _⟩ => show win0_1.index t (2 : Fin 3) * 64 + 1 * d.val = d.val; omega

/-- Entry `(j, d)` of the values block is the prepared value array at `(b, j, d)`. -/
theorem v_block (c : Dev nD) (t : Fin cfg0.N) (j : Fin 4096) (d : Fin 64) :
    (iblk m c 2 t : Vec Ideal S1x4096x64 .bf16) (ix3 (0 : Fin 1) j d)
      = (V m c main_v1 : S4x4096x64.Idx → EReal) (ix3 (batchOf t) j d) := by
  show (V m c main_v1 : S4x4096x64.Idx → EReal) (((cfg0.win 2).blk t).view.emb (ix3 (0 : Fin 1) j d)) = _
  refine congrArg _ (funext fun a => Fin.ext ?_)
  obtain ⟨-, -, -, -, -, -, e0, e1, e2, -⟩ := idx_facts t
  match a with
  | ⟨0, _⟩ => show win0_2.index t (0 : Fin 3) * 1 + 1 * 0 = win0_5.index t (0 : Fin 3); omega
  | ⟨1, _⟩ => show win0_2.index t (1 : Fin 3) * 4096 + 1 * j.val = j.val; omega
  | ⟨2, _⟩ => show win0_2.index t (2 : Fin 3) * 64 + 1 * d.val = d.val; omega

/-- Entry `j` of the log-mask block is the prepared log-mask row of batch `b` at `j`. -/
theorem lm_block (c : Dev nD) (t : Fin cfg0.N) (j : Fin 4096) :
    (iblk m c 3 t : Vec Ideal S1x1x4096 .f32) (ix3 (0 : Fin 1) (0 : Fin 1) j)
      = (V m c main_v3 : S4x1x4096.Idx → EReal) (ix3 (batchOf t) (0 : Fin 1) j) := by
  show (V m c main_v3 : S4x1x4096.Idx → EReal) (((cfg0.win 3).blk t).view.emb (ix3 (0 : Fin 1) (0 : Fin 1) j)) = _
  refine congrArg _ (funext fun a => Fin.ext ?_)
  obtain ⟨-, -, -, -, -, -, -, -, -, e0, e1, e2, -⟩ := idx_facts t
  match a with
  | ⟨0, _⟩ => show win0_3.index t (0 : Fin 3) * 1 + 1 * 0 = win0_5.index t (0 : Fin 3); omega
  | ⟨1, _⟩ => show win0_3.index t (1 : Fin 3) * 1 + 1 * 0 = 0; omega
  | ⟨2, _⟩ => show win0_3.index t (2 : Fin 3) * 4096 + 1 * j.val = j.val; omega

/-- Entry `r` of the own-mask block is the prepared mask column of batch `b` at row `256·qi + r`. -/
theorem own_block (c : Dev nD) (t : Fin cfg0.N) (r : Fin 256) :
    (iblk m c 4 t : Vec Ideal S1x256x1 .f32) (ix3 (0 : Fin 1) r (0 : Fin 1))
      = (V m c main_v4 : S4x4096x1.Idx → EReal) (ix3 (batchOf t) (rowOf t r) (0 : Fin 1)) := by
  show (V m c main_v4 : S4x4096x1.Idx → EReal) (((cfg0.win 4).blk t).view.emb (ix3 (0 : Fin 1) r (0 : Fin 1))) = _
  refine congrArg _ (funext fun a => Fin.ext ?_)
  obtain ⟨-, -, -, -, -, -, -, -, -, -, -, -, e0, e1, e2, -⟩ := idx_facts t
  match a with
  | ⟨0, _⟩ => show win0_4.index t (0 : Fin 3) * 1 + 1 * 0 = win0_5.index t (0 : Fin 3); omega
  | ⟨1, _⟩ => show win0_4.index t (1 : Fin 3) * 256 + 1 * r.val = 256 * win0_5.index t (1 : Fin 3) + r.val; omega
  | ⟨2, _⟩ => show win0_4.index t (2 : Fin 3) * 1 + 1 * 0 = 0; omega

/-! ## One entry of a block is one entry of the attention formula -/

/-- The word of 0.125 denotes 1/8. -/
theorem ofBits_eighth : Ideal.ofBits .f32 0x3E000000#32 = ((1 / 8 : ℝ) : EReal) := by
  simp [Ideal.ofBits, Ideal.ieee, -EReal.coe_mul]; norm_num

/-- The word of 1.0 denotes 1. -/
theorem ofBits_one : Ideal.ofBits .f32 0x3F800000#32 = (1 : EReal) := by
  simp [Ideal.ofBits, Ideal.ieee, -EReal.coe_mul]; norm_num

section Entry

variable (c : Dev nD) (t : Fin cfg0.N)

/-- The queries, keys, values and mask as launched, on core `c`. -/
abbrev argQ : S4x4096x64.Idx → EReal := m ((c : Thread nD τ).loc main_arg0)
abbrev argK : S4x4096x64.Idx → EReal := m ((c : Thread nD τ).loc main_arg1)
abbrev argV : S4x4096x64.Idx → EReal := m ((c : Thread nD τ).loc main_arg2)
abbrev argM : S4x4096.Idx → EReal := m ((c : Thread nD τ).loc main_arg3)

/-- The scaled, narrowed query tile at `(r, d)` is the query times 1/8. -/
theorem scaledB_entry (r : Fin 256) (d : Fin 64) :
    scaledB (iblk m c 0 t : Vec Ideal S1x256x64 .f32) (ix2 r d)
      = argQ m c (ix3 (batchOf t) (rowOf t r) d) * ((1 / 8 : ℝ) : EReal) := by
  unfold scaledB
  rw [truncf_apply, scaled_apply, q_block, V_main_arg0, ofBits_eighth]

/-- The block's score of key `j` of chunk `c'` for row `r` is the formula's score of key `512·c' + j` for row
    `256·qi + r` of batch `b`. -/
theorem score_entry (r : Fin 256) (c' : Fin 8) (j : Fin 512) :
    rowScore (iblk m c 0 t : Vec Ideal S1x256x64 .f32) (iblk m c 1 t : Vec Ideal S1x4096x64 .bf16)
        (iblk m c 3 t : Vec Ideal S1x1x4096 .f32) r c' j
      = chunkScore (argQ m c) (argK m c) (argM m c) (batchOf t) (rowOf t r) c' j := by
  unfold rowScore chunkScore score
  rw [scoresOf_apply, lmChunk_apply, lm_block, V_logmask_apply]
  congr 1
  refine Finset.sum_congr rfl fun d' _ => ?_
  rw [scaledB_entry, chunk_apply, k_block, V_keys_apply]
  rfl

variable (vr : S4x4096x64.Idx → ℝ) (hv : ∀ x, argV m c x = ((vr x : ℝ) : EReal))

/-- A real-valued copy of the values block. -/
def valsCopy (y : S1x4096x64.Idx) : ℝ := vr (ix3 (batchOf t) (y 1) (y 2))

include hv in
theorem vals_real (y : S1x4096x64.Idx) :
    (iblk m c 2 t : Vec Ideal S1x4096x64 .bf16) y = ((valsCopy t vr y : ℝ) : EReal) := by
  obtain ⟨u, j, d, rfl⟩ : ∃ (u : Fin 1) (j : Fin 4096) (d : Fin 64), y = ix3 u j d := ⟨y 0, y 1, y 2, eq_ix3 y⟩
  obtain rfl : u = 0 := Subsingleton.elim _ _
  rw [v_block, V_vals_apply]
  exact hv _

variable (qr kr : S4x4096x64.Idx → ℝ) (mr : S4x4096.Idx → ℝ)
variable (hq : ∀ x, argQ m c x = ((qr x : ℝ) : EReal)) (hk : ∀ x, argK m c x = ((kr x : ℝ) : EReal))
variable (hm : ∀ x, argM m c x = ((mr x : ℝ) : EReal)) (hm0 : ∀ x, 0 ≤ mr x)

include hq hk hv hm hm0 in
/-- Entry `(r, d)` of the block point `t` computes is entry `(b, 256·qi + r, d)` of the attention formula. -/
theorem block_entry (r : Fin 256) (d : Fin 64) :
    blockOut (iblk m c 0 t : Vec Ideal S1x256x64 .f32) (iblk m c 1 t : Vec Ideal S1x4096x64 .bf16)
        (iblk m c 2 t : Vec Ideal S1x4096x64 .bf16) (iblk m c 3 t : Vec Ideal S1x1x4096 .f32)
        (iblk m c 4 t : Vec Ideal S1x256x1 .f32) (ix3 (0 : Fin 1) r d)
      = G (argQ m c) (argK m c) (argV m c) (argM m c) (ix3 (batchOf t) (rowOf t r) d) := by
  have hS : ∀ r c' j, rowScore (iblk m c 0 t : Vec Ideal S1x256x64 .f32) (iblk m c 1 t : Vec Ideal S1x4096x64 .bf16)
      (iblk m c 3 t : Vec Ideal S1x1x4096 .f32) r c' j ≠ ⊤ := fun r c' j => by
    rw [score_entry]
    exact chunkScore_ne_top _ _ _ qr kr mr hq hk hm _ _ _ _
  rw [blockOut_apply _ _ _ _ _ (valsCopy t vr) (vals_real m c t vr hv) hS,
    G_ix3, gAt_eq_divide_once _ _ _ _ qr kr vr mr hq hk hv hm hm0]
  have hsc : rowScore (iblk m c 0 t : Vec Ideal S1x256x64 .f32) (iblk m c 1 t : Vec Ideal S1x4096x64 .bf16)
      (iblk m c 3 t : Vec Ideal S1x1x4096 .f32) r = chunkScore (argQ m c) (argK m c) (argM m c) (batchOf t) (rowOf t r) :=
    funext fun c' => funext fun j => score_entry m c t r c' j
  have hvl : rowVal (valsCopy t vr) d = chunkVal vr (batchOf t) d := rfl
  rw [hsc, hvl, own_block, V_own_apply, q_block, V_main_arg0, ofBits_one, ofBits_eighth]
  rfl

end Entry

/-! ## From the blocks to the array -/

section Array

variable (qr kr vr : Dev nD → S4x4096x64.Idx → ℝ) (mr : Dev nD → S4x4096.Idx → ℝ)
variable (hq : ∀ c x, argQ m c x = ((qr c x : ℝ) : EReal)) (hk : ∀ c x, argK m c x = ((kr c x : ℝ) : EReal))
variable (hv : ∀ c x, argV m c x = ((vr c x : ℝ) : EReal))
variable (hm : ∀ c x, argM m c x = ((mr c x : ℝ) : EReal)) (hm0 : ∀ c x, 0 ≤ mr c x)

/-- Entry `(r, d)` of point `t`'s output block sits at `(b, 256·qi + r, d)` of the result array. -/
theorem out_emb (t : Fin cfg0.N) (r : Fin 256) (d : Fin 64) :
    ((cfg0.win 5).blk t).view.emb (ix3 (0 : Fin 1) r d) = ix3 (batchOf t) (rowOf t r) d := by
  funext a
  apply Fin.ext
  have e2 := (idx_facts t).2.2.2.2.2.2.2.2.2.2.2.2.2.2.2.2.2
  match a with
  | ⟨0, _⟩ => show win0_5.index t (0 : Fin 3) * 1 + 1 * 0 = win0_5.index t (0 : Fin 3); omega
  | ⟨1, _⟩ => show win0_5.index t (1 : Fin 3) * 256 + 1 * r.val = 256 * win0_5.index t (1 : Fin 3) + r.val; omega
  | ⟨2, _⟩ => show win0_5.index t (2 : Fin 3) * 64 + 1 * d.val = d.val; omega

include hq hk hv hm hm0 in
/-- What point `t` writes back is block `t` of the attention formula of the argument arrays. -/
theorem flushed_eq (c : Dev nD) (t : Fin cfg0.N) :
    (dats m 0 c).flushed 5 t
      = ((cfg0.win 5).blk t).view.read (Elt Ideal) (G (argQ m c) (argK m c) (argV m c) (argM m c)) := by
  rw [Cert.KernelIdeal.Value.flushed5_A, out_eq]
  funext (y : S1x256x64.Idx)
  obtain ⟨u, r, d, rfl⟩ : ∃ (u : Fin 1) (r : Fin 256) (d : Fin 64), y = ix3 u r d := ⟨y 0, y 1, y 2, eq_ix3 y⟩
  obtain rfl : u = 0 := Subsingleton.elim _ _
  show blockOut (iblk m c 0 t : Vec Ideal S1x256x64 .f32) (iblk m c 1 t : Vec Ideal S1x4096x64 .bf16)
      (iblk m c 2 t : Vec Ideal S1x4096x64 .bf16) (iblk m c 3 t : Vec Ideal S1x1x4096 .f32)
      (iblk m c 4 t : Vec Ideal S1x256x1 .f32) (ix3 (0 : Fin 1) r d)
    = G (argQ m c) (argK m c) (argV m c) (argM m c) (((cfg0.win 5).blk t).view.emb (ix3 (0 : Fin 1) r d))
  rw [out_emb, block_entry m c t (vr c) (hv c) (qr c) (kr c) (mr c) (hq c) (hk c) (hm c) (hm0 c)]

/-- An index of the result array is in point `t`'s block iff each coordinate is in the block's range on its axis. -/
theorem mem_blk (t : Fin cfg0.N) (i : S4x4096x64.Idx) :
    i ∈ ((cfg0.win 5).blk t).view.set
      ↔ ∀ a : Fin 3, win0_5.index t a * S1x256x64.size a ≤ (i a).val
          ∧ (i a).val < win0_5.index t a * S1x256x64.size a + S1x256x64.size a := by
  show i ∈ ((View.whole main_v5).slice (win0_5.rect t)).set ↔ _
  rw [View.set_slice_whole, Rect.mem_set_unit]
  exact Iff.rfl

/-- The 64 blocks tile the result array: row `i` of batch `b` is in the block of batch `b`, tile `i / 256`. -/
theorem cover (i : S4x4096x64.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 256 ≤ (i 1).val ∧ (i 1).val < win0_5.index t (1 : Fin 3) * 256 + 256
    omega
  | ⟨2, _⟩ =>
    show win0_5.index t (2 : Fin 3) * 64 ≤ (i 2).val ∧ (i 2).val < win0_5.index t (2 : Fin 3) * 64 + 64
    omega

include hq hk hv hm hm0 in
/-- The result array after the run is the attention formula of the argument arrays. -/
theorem final (c : Dev nD) :
    (dats m 0 c).arrAt 5 cfg0.N = G (argQ m c) (argK m c) (argV m c) (argM m c) :=
  (dats m 0 c).arrAt_eq_of_cover 5 (G (argQ m c) (argK m c) (argV m c) (argM m c))
    (fun t _ => flushed_eq m qr kr vr mr hq hk hv hm hm0 c t) cover

include hq hk hv hm hm0 in
/-- The kernel's run: every fair execution ends with the result array at the attention formula of the argument
    arrays, and the argument arrays as they were. -/
theorem run : θ_run defs (onTc (τ := τ) (main (F := Ideal))) ⟨m, fun _ => 0, ρ⟩ fun r => ∀ c : Dev nD,
      r.2.mem ((c : Thread nD τ).loc main_v5) = G (argQ m c) (argK m c) (argV m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m qr kr vr mr hq hk hv hm hm0 c), (h c).2⟩)
    (Cert.KernelIdeal.Value.run_blocks m ρ)

end Array

end Cert.KernelIdeal.Bridge

end
-- ==== Proof.RefIsG.lean ====
/-
  The reference program's result is the attention formula G of the specification, index by index.

  The reference divides the queries by 64 ^ (1/2) = 8, which is the product with 1/8; each score is the
  contraction over the 64 columns plus the logarithm of the key's mask; the row maximum is the fold of max
  from −∞ over the 4096 keys, which is the supremum; the softmax weights are the shifted exponentials over
  their sum; the output is their contraction with the values over the 4096 keys, blended with the scaled
  query by the row's own mask.
-/
import proofs.«112999_j62397284877035_2_alg».proof.Proof.Gen.ReferenceIdeal.Read
import proofs.«112999_j62397284877035_2_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Attn

/-! ## The constants -/

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The pattern of -inf denotes the bottom element. -/
theorem ofBits_neg_inf : Ideal.ofBits .f32 0xFF800000#32 = ⊥ := by
  simp [Ideal.ofBits, Ideal.ieee]

/-- 64 ^ (1/2) = 8. -/
theorem pow_64_half : Ideal.pow (Ideal.ofBits .f32 0x42800000#32) (Ideal.ofBits .f32 0x3F000000#32) = ((8 : ℝ) : EReal) := by
  rw [ofBits_64, ofBits_half, Ideal.pow_coe_coe]
  congr 1
  rw [show (64 : ℝ) = 8 ^ (2 : ℝ) by norm_num, Real.rpow_eq_pow, ← Real.rpow_mul (by norm_num)]
  norm_num

/-! ## The fold of max from the bottom is the supremum -/

theorem fold_max_bot_eq_sup {ι : Type} (s : Finset ι) (f : ι → EReal) : s.fold max ⊥ f = s.sup f := by
  apply le_antisymm
  · exact (Finset.fold_max_le _).2 ⟨bot_le, fun x hx => Finset.le_sup hx⟩
  · exact Finset.sup_le fun x hx => (Finset.le_fold_max _).2 (Or.inr ⟨x, hx, le_rfl⟩)

variable (a0 a1 a2 : FVec Ideal S4x4096x64 .f32) (a3 : FVec Ideal S4x4096 .f32)

/-! ## Stage by stage -/

/-- The scaled query. -/
theorem v2_ix3 (b : Fin 4) (i : Fin 4096) (d : Fin 64) :
    val_main_v2 (F := Ideal) a0 (ix3 b i d) = sq a0 b i d := by
  rw [val_main_v2_apply, val_main_v1_apply, val_main_v0_apply, val_main_cst_apply, val_main_cst_0_apply]
  simp only [Ideal.hostDivf_def, Ideal.hostPowf_def, Ideal.ofBits_def]
  rw [pow_64_half, Ideal.div_coe (by norm_num)]
  rfl

/-- The scaled dot product of query i and key j. -/
theorem v3_ix3 (b : Fin 4) (i j : Fin 4096) :
    val_main_v3 (F := Ideal) a0 a1 (ix3 b i j) = ∑ d : Fin 64, sq a0 b i d * a1 (ix3 b j d) := by
  rw [val_main_v3_apply]
  refine Finset.sum_congr rfl fun d _ => ?_
  have el : lidx_main_v3 (ix3 b i j) d = ix3 b i d :=
    funext fun a => Fin.ext (by match a with | ⟨0, _⟩ => rfl | ⟨1, _⟩ => rfl | ⟨2, _⟩ => rfl)
  have er : ridx_main_v3 (ix3 b i j) d = ix3 b j d :=
    funext fun a => Fin.ext (by match a with | ⟨0, _⟩ => rfl | ⟨1, _⟩ => rfl | ⟨2, _⟩ => rfl)
  rw [el, er, v2_ix3]

/-- The score. -/
theorem v7_ix3 (b : Fin 4) (i j : Fin 4096) :
    val_main_v7 (F := Ideal) a0 a1 a3 (ix3 b i j) = score a0 a1 a3 b i j := by
  rw [val_main_v7_apply, v3_ix3, val_main_v6_apply, val_main_v5_apply, val_main_v4_apply]
  have e : idx_main_v5 (idx_main_v6 (ix3 b i j)) = ix2 b j :=
    funext fun a => Fin.ext (by match a with | ⟨0, _⟩ => rfl | ⟨1, _⟩ => rfl)
  rw [e]
  simp only [Ideal.addf_def, Ideal.hostUnary_log_def]
  rfl

/-- The witness of the reduction's shapes that names the inserted coordinate. -/
theorem reduces_d2 : Shape.Reduces S4x4096x4096 [2] S4x4096 := by decide

/-- The reduction over the keys: the row maximum. -/
theorem v8_ix2 (b : Fin 4) (i : Fin 4096) :
    val_main_v8 (F := Ideal) a0 a1 a3 (ix2 b i) = rowMax a0 a1 a3 b i := by
  unfold val_main_v8
  rw [Host.reduce_eq_fold_single FloatOps.maximumf _ _ reducesTo_S4x4096x4096_S4x4096_d2 reduces_d2 h_S_]
  rw [val_main_cst_1_apply]
  have hf : (val_main_v7 (F := Ideal) a0 a1 a3 ∘ reduces_d2.lift (ix2 b i)) = fun j : Fin 4096 => score a0 a1 a3 b i j := by
    refine funext fun (j : Fin 4096) => ?_
    have e : reduces_d2.lift (ix2 b i) j = ix3 b i j :=
      funext fun a => Fin.ext (by match a with | ⟨0, _⟩ => rfl | ⟨1, _⟩ => rfl | ⟨2, _⟩ => rfl)
    show val_main_v7 (F := Ideal) a0 a1 a3 (reduces_d2.lift (ix2 b i) j) = _
    rw [e, v7_ix3]
  rw [hf]
  show Finset.fold max (Ideal.ofBits .f32 0xFF800000#32) (fun j : Fin 4096 => score a0 a1 a3 b i j) Finset.univ = _
  rw [ofBits_neg_inf, fold_max_bot_eq_sup]
  rfl

/-- The maximum with −∞ changes nothing. -/
theorem v10_ix2 (b : Fin 4) (i : Fin 4096) :
    val_main_v10 (F := Ideal) a0 a1 a3 (ix2 b i) = rowMax a0 a1 a3 b i := by
  rw [val_main_v10_apply, val_main_v9_apply, val_main_cst_2_apply, v8_ix2]
  simp only [Ideal.maximumf_def, Ideal.ofBits_def]
  rw [ofBits_neg_inf]
  exact max_eq_right bot_le

/-- The shifted exponential. -/
theorem v14_ix3 (b : Fin 4) (i j : Fin 4096) :
    val_main_v14 (F := Ideal) a0 a1 a3 (ix3 b i j) = wexp a0 a1 a3 b i j := by
  rw [val_main_v14_apply, val_main_v13_apply, v7_ix3, val_main_v12_apply, val_main_v11_apply]
  have e : idx_main_v11 (idx_main_v12 (ix3 b i j)) = ix2 b i :=
    funext fun a => Fin.ext (by match a with | ⟨0, _⟩ => rfl | ⟨1, _⟩ => rfl)
  rw [e, v10_ix2]
  simp only [Ideal.subf_def, Ideal.hostUnary_exp_def]
  rfl

/-- The softmax denominator. -/
theorem v15_ix2 (b : Fin 4) (i : Fin 4096) :
    val_main_v15 (F := Ideal) a0 a1 a3 (ix2 b i) = denom a0 a1 a3 b i := by
  rw [val_main_v15_apply, val_main_cst_3_apply]
  simp only [Ideal.ofBits_def]
  rw [Ideal.ofBits_zero_f32, zero_add]
  refine Finset.sum_congr rfl fun j _ => ?_
  have e : idx_main_v15 (ix2 b i) j = ix3 b i j :=
    funext fun a => Fin.ext (by match a with | ⟨0, _⟩ => rfl | ⟨1, _⟩ => rfl | ⟨2, _⟩ => rfl)
  rw [e, v14_ix3]

/-- The softmax weight. -/
theorem v18_ix3 (b : Fin 4) (i j : Fin 4096) :
    val_main_v18 (F := Ideal) a0 a1 a3 (ix3 b i j) = Ideal.div (wexp a0 a1 a3 b i j) (denom a0 a1 a3 b i) := by
  rw [val_main_v18_apply, v14_ix3, val_main_v17_apply, val_main_v16_apply]
  have e : idx_main_v16 (idx_main_v17 (ix3 b i j)) = ix2 b i :=
    funext fun a => Fin.ext (by match a with | ⟨0, _⟩ => rfl | ⟨1, _⟩ => rfl)
  rw [e, v15_ix2]
  rfl

/-- The attention output. -/
theorem v19_ix3 (b : Fin 4) (i : Fin 4096) (d : Fin 64) :
    val_main_v19 (F := Ideal) a0 a1 a2 a3 (ix3 b i d) = attn a0 a1 a2 a3 b i d := by
  rw [val_main_v19_apply]
  refine Finset.sum_congr rfl fun j _ => ?_
  have el : lidx_main_v19 (ix3 b i d) j = ix3 b i j :=
    funext fun a => Fin.ext (by match a with | ⟨0, _⟩ => rfl | ⟨1, _⟩ => rfl | ⟨2, _⟩ => rfl)
  have er : ridx_main_v19 (ix3 b i d) j = ix3 b j d :=
    funext fun a => Fin.ext (by match a with | ⟨0, _⟩ => rfl | ⟨1, _⟩ => rfl | ⟨2, _⟩ => rfl)
  rw [el, er, v18_ix3]

/-- The attention output times the row's mask. -/
theorem v22_ix3 (b : Fin 4) (i : Fin 4096) (d : Fin 64) :
    val_main_v22 (F := Ideal) a0 a1 a2 a3 (ix3 b i d) = attn a0 a1 a2 a3 b i d * a3 (ix2 b i) := by
  rw [val_main_v22_apply, v19_ix3, val_main_v21_apply, val_main_v20_apply]
  have e : idx_main_v20 (idx_main_v21 (ix3 b i d)) = ix2 b i :=
    funext fun a => Fin.ext (by match a with | ⟨0, _⟩ => rfl | ⟨1, _⟩ => rfl)
  rw [e]
  rfl

/-- The scaled query times one minus the row's mask. -/
theorem v27_ix3 (b : Fin 4) (i : Fin 4096) (d : Fin 64) :
    val_main_v27 (F := Ideal) a0 a3 (ix3 b i d) = sq a0 b i d * (1 - a3 (ix2 b i)) := by
  rw [val_main_v27_apply, v2_ix3, val_main_v26_apply, val_main_v25_apply, val_main_v24_apply, val_main_v23_apply,
    val_main_cst_4_apply]
  have e : idx_main_v25 (idx_main_v26 (ix3 b i d)) = ix2 b i :=
    funext fun a => Fin.ext (by match a with | ⟨0, _⟩ => rfl | ⟨1, _⟩ => rfl)
  rw [e]
  simp only [Ideal.mulf_def, Ideal.subf_def, Ideal.ofBits_def]
  rw [ofBits_one]

/-- The reference's result is the attention formula. -/
theorem ref_eq_G : val_main_v28 (F := Ideal) a0 a1 a2 a3 = Cert.Attn.G a0 a1 a2 a3 := by
  funext idx
  obtain ⟨b, i, d, rfl⟩ : ∃ b i d, idx = ix3 b i d := ⟨idx 0, idx 1, idx 2, eq_ix3 idx⟩
  rw [Cert.Attn.G_ix3, val_main_v28_apply, v22_ix3, v27_ix3]
  rfl

end Cert.ReferenceIdeal.RefValue

end
-- ==== Proof.PreFacts.lean ====
/-
  What the precondition says of the four inputs: every entry of the queries, keys and values is a real
  number, and every entry of the mask is a nonnegative real number.

  The precondition is the conjunction of four "every |x| is below +∞" facts, one per input, and of "every mask
  entry is at least 0". An extended real whose absolute value max x (−x) is below +∞ is neither +∞ nor −∞.
-/
import proofs.«112999_j62397284877035_2_alg».proof.Pre_finite_inputs
import proofs.«112999_j62397284877035_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn.Pre

open Idealize.ShloMosaic Cert.Pre_finite_inputs Cert.Pre_finite_inputs.Gen

/-- The scalar shape has one index. -/
instance : Subsingleton S_.Idx := ⟨fun a b => funext fun d => d.elim0⟩

/-- The pattern of +inf denotes the top element. -/
theorem ofBits_pos_inf : Ideal.ofBits .f32 0x7F800000#32 = ⊤ := by
  simp [Ideal.ofBits, Ideal.ieee]

/-- An extended real whose absolute value is below +∞ is a real number. -/
theorem real_of_abs_lt_top (x : EReal)
    (hx : Ideal.cmp .olt (max x (-x)) (Ideal.ofBits .f32 0x7F800000#32) = 1#1) : ∃ r : ℝ, x = (r : EReal) := by
  rw [ofBits_pos_inf] at hx
  induction x using EReal.rec with
  | bot => simp [Ideal.cmp] at hx
  | coe r => exact ⟨r, rfl⟩
  | top => simp [Ideal.cmp] at hx

/-- An extended real that is at least 0 and is a real number is a nonnegative real number. -/
theorem nonneg_of_cmp_oge (r : ℝ) (hx : Ideal.cmp .oge (r : EReal) (Ideal.ofBits .f32 0x00000000#32) = 1#1) : 0 ≤ r := by
  rw [Ideal.ofBits_zero_f32] at hx
  simp [Ideal.cmp] at hx
  by_contra hn
  rw [decide_eq_false hn] at hx
  exact absurd hx (by decide)

/-- Under the precondition every entry of the first three inputs is a real number and every entry of the mask a
    nonnegative real number. -/
theorem facts_of_pre (a0 a1 a2 : FVec Ideal Cert.Pre_finite_inputs.S4x4096x64 .f32) (a3 : FVec Ideal Cert.Pre_finite_inputs.S4x4096 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, 0 ≤ r ∧ a3 i = (r : EReal)) := by
  have h0 := congrFun h ValueIdx.ix0
  dsimp only [fn, fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  have f3 : ∀ i, ∃ r : ℝ, a3 i = (r : EReal) := fun i =>
    real_of_abs_lt_top (a3 i) (Host.reduce_andi_all _ _ _ _ _ h4 i)
  refine ⟨fun i => real_of_abs_lt_top (a0 i) (Host.reduce_andi_all _ _ _ _ _ h1 i),
    fun i => real_of_abs_lt_top (a1 i) (Host.reduce_andi_all _ _ _ _ _ h2 i),
    fun i => real_of_abs_lt_top (a2 i) (Host.reduce_andi_all _ _ _ _ _ h3 i), fun i => ?_⟩
  obtain ⟨r, hr⟩ := f3 i
  have h5i : Ideal.cmp .oge (a3 i) (Ideal.ofBits .f32 0x00000000#32) = 1#1 := Host.reduce_andi_all _ _ _ _ _ h5 i
  rw [hr] at h5i
  exact ⟨r, nonneg_of_cmp_oge r h5i, hr⟩

end Cert.Attn.Pre

end
-- ==== Proof.lean ====
/-
  Masked scaled-dot-product attention computed by an online softmax over eight chunks of keys, against the plain
  softmax formula: the two idealized programs end with equal results on the extended reals.

  Both programs compute, for batch `b`, query row `i` and column `d`,
      G[b,i,d] = (Σ_j w_j · v[b,j,d]) · mask[b,i] + (q[b,i,d] / 8) · (1 − mask[b,i]),
  where `w_j = exp (s_j − max s) / Σ_j exp (s_j − max s)` and `s_j = Σ_d' (q[b,i,d'] / 8) · k[b,j,d'] + log mask[b,j]`.
  The reference forms the weights `w_j` one by one (`RefIsG.lean`; its `64 ^ (1/2)` is 8). The kernel never forms them:
  per tile of 256 query rows it walks the keys in chunks of 512, keeping a running maximum, denominator and numerator
  that it re-bases whenever the maximum grows, and divides once at the end (`BlockSpec.lean`, `StepRead.lean`,
  `BlockValue.lean` over the shift law `exp (m − m') · exp (x − m) = exp (x − m')` of `ExpShift.lean`); the 64 tiles
  it writes back tile the result array (`HostSide.lean`, `Bridge.lean`).

  The two agree (`SoftmaxLaw.lean`) for real inputs and a nonnegative mask. If the row's own mask entry is 0 both
  attention terms are multiplied by 0. If it is positive its logarithm is real, so the row's own key has a real score,
  the maximum is real and the denominator positive, and dividing a sum once by a positive real is dividing each term.
  Nonnegativity of the mask is what the precondition adds to finiteness: under a logarithm a negative entry has no
  value, and on a row whose keys are all masked the two ways of dividing by the zero denominator differ unless the
  row's own mask entry, one of those keys', is itself 0 (`PreFacts.lean` reads the precondition).

  The frames of the two kernel programs are the generated ones; the reference's frame is its generated run with the
  result dropped; the idealization changed no operation, so there is nothing to preserve.
-/
import proofs.«112999_j62397284877035_2_alg».proof.Defs
import proofs.«112999_j62397284877035_2_alg».proof.Proof.Gen.Kernel
import proofs.«112999_j62397284877035_2_alg».proof.Proof.Gen.Kernel.Skeleton
import proofs.«112999_j62397284877035_2_alg».proof.Proof.Gen.Kernel.Launch
import proofs.«112999_j62397284877035_2_alg».proof.Proof.Gen.Kernel.Points
import proofs.«112999_j62397284877035_2_alg».proof.Proof.Gen.Kernel.Frame
import proofs.«112999_j62397284877035_2_alg».proof.Proof.Gen.KernelIdeal
import proofs.«112999_j62397284877035_2_alg».proof.Proof.Gen.KernelIdeal.Skeleton
import proofs.«112999_j62397284877035_2_alg».proof.Proof.Gen.KernelIdeal.Launch
import proofs.«112999_j62397284877035_2_alg».proof.Proof.Gen.KernelIdeal.Points
import proofs.«112999_j62397284877035_2_alg».proof.Proof.Gen.KernelIdeal.Frame
import proofs.«112999_j62397284877035_2_alg».proof.Proof.Gen.ReferenceIdeal
import proofs.«112999_j62397284877035_2_alg».proof.Proof.Gen.KernelIdeal.Value
import proofs.«112999_j62397284877035_2_alg».proof.Proof.Gen.ReferenceIdeal.Run
import proofs.«112999_j62397284877035_2_alg».proof.Proof.Gen.ReferenceIdeal.Read
import proofs.«112999_j62397284877035_2_alg».proof.Proof.Gen.Pre_finite_inputs
import proofs.«112999_j62397284877035_2_alg».proof.Proof.Bridge
import proofs.«112999_j62397284877035_2_alg».proof.Proof.RefIsG
import proofs.«112999_j62397284877035_2_alg».proof.Proof.PreFacts
import Idealize.ShloMosaic.Adequacy
import Idealize.ShloMosaic.Init

noncomputable section

namespace Cert.Proof

open Idealize.ShloMosaic Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's frame: its run, with what it says of the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both idealized programs end with the attention formula `G` of the argument arrays. -/
theorem algebraic [Cert.KernelIdeal.Facts] [Cert.ReferenceIdeal.Facts] [Cert.Pre_finite_inputs.Facts] :
    Cert.algebraic_KernelIdeal_ReferenceIdeal := by
  intro m ρ m' ρ' hpre hagree
  have hf := fun c => Cert.Attn.Pre.facts_of_pre _ _ _ _ (hpre c)
  choose qr hq using fun c i => (hf c).1 i
  choose kr hk using fun c i => (hf c).2.1 i
  choose vr hv using fun c i => (hf c).2.2.1 i
  choose mr hm0 hm using fun c i => (hf c).2.2.2 i
  refine ⟨fun c => Cert.Attn.G (Cert.KernelIdeal.Bridge.argQ m c) (Cert.KernelIdeal.Bridge.argK m c)
      (Cert.KernelIdeal.Bridge.argV m c) (Cert.KernelIdeal.Bridge.argM m c),
    Cert.KernelIdeal.Bridge.run m ρ qr kr vr mr hq hk hv hm hm0, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.ReferenceIdeal.RefValue.ref_eq_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
